-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S8192x128 : Shape := ⟨2, ![8192, 128]⟩
abbrev S16384x8192 : Shape := ⟨2, ![16384, 8192]⟩
abbrev S128x128 : Shape := ⟨2, ![128, 128]⟩
abbrev S128 : Shape := ⟨1, ![128]⟩
abbrev S524288 : Shape := ⟨1, ![524288]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S16384x8192 : S_.BroadcastsInDim S16384x8192 (![] : Fin 0 → Fin S16384x8192.rank)
  reducesTo_S16384x8192_S_d0_1 : S16384x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x128 .f32) (main_arg1 : FVec F S8192x128 .f32) (main_arg2 : FVec F S16384x8192 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : IVec S524288 32) (main_arg12 : IVec S524288 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S16384x8192 .f32 := Host.absf main_arg2
  let main_cst_2 : FVec F S_ .f32 := constant S_ .f32 0x7F800000#32
  let main_v10 : FVec F S16384x8192 .f32 := broadcastInDim S16384x8192 ![] bcast_S_S16384x8192 main_cst_2
  let main_v11 : IVec S16384x8192 1 := cmpf .olt main_v9 main_v10
  let main_c_3 : IVec S_ 1 := constantI S_ 1 1#1
  let main_v12 : IVec S_ 1 := (fun x v => Host.reduce IntOp.andi x v reducesTo_S16384x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S16384x128 : Shape := ⟨2, ![16384, 128]⟩
abbrev S8192x128 : Shape := ⟨2, ![8192, 128]⟩
abbrev S16384x8192 : Shape := ⟨2, ![16384, 8192]⟩
abbrev S128x128 : Shape := ⟨2, ![128, 128]⟩
abbrev S128 : Shape := ⟨1, ![128]⟩
abbrev S524288 : Shape := ⟨1, ![524288]⟩
abbrev S256x8192 : Shape := ⟨2, ![256, 8192]⟩
abbrev S256x128 : Shape := ⟨2, ![256, 128]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x256 : Shape := ⟨2, ![16384, 256]⟩
abbrev S524288x256 : Shape := ⟨2, ![524288, 256]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 65
  | .vmem => 19
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x8192, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S524288, .i32⟩
  | .hbm, ⟨12, _⟩ => ⟨S524288, .i32⟩
  | .hbm, ⟨13, _⟩ => ⟨S8192x128, .bf16⟩
  | .hbm, ⟨14, _⟩ => ⟨S16384x128, .f32⟩
  | .hbm, ⟨15, _⟩ => ⟨S_, .f32⟩
  | .hbm, ⟨16, _⟩ => ⟨S524288, .f32⟩
  | .hbm, ⟨17, _⟩ => ⟨S_, .f32⟩
  | .hbm, ⟨18, _⟩ => ⟨S16384, .f32⟩
  | .hbm, ⟨19, _⟩ => ⟨S524288x1, .i32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S524288x1, .i32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384, .f32⟩
  | .hbm, ⟨34, _⟩ => ⟨S16384x1, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x256, .f32⟩
  | .hbm, ⟨40, _⟩ => ⟨S_, .i32⟩
  | .hbm, ⟨41, _⟩ => ⟨S524288, .i32⟩
  | .hbm, ⟨42, _⟩ => ⟨S524288, .i1⟩
  | .hbm, ⟨43, _⟩ => ⟨S_, .i32⟩
  | .hbm, ⟨44, _⟩ => ⟨S524288, .i32⟩
  | .hbm, ⟨45, _⟩ => ⟨S524288, .i32⟩
  | .hbm, ⟨46, _⟩ => ⟨S524288, .i32⟩
  | .hbm, ⟨47, _⟩ => ⟨S524288x1, .i32⟩
  | .hbm, ⟨48, _⟩ => ⟨S524288x256, .f32⟩
  | .hbm, ⟨49, _⟩ => ⟨S_, .f32⟩
  | .hbm, ⟨50, _⟩ => ⟨S16384x256, .f32⟩
  | .hbm, ⟨51, _⟩ => ⟨S524288x1, .i32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x128, .f32⟩
  | .hbm, ⟨57, _⟩ => ⟨S16384x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S16384x128, .f32⟩
  | .local _ .vmem, ⟨0, _⟩ => ⟨S256x8192, .f32⟩
  | .local _ .vmem, ⟨1, _⟩ => ⟨S256x8192, .f32⟩
  | .local _ .vmem, ⟨2, _⟩ => ⟨S8192x128, .bf16⟩
  | .local _ .vmem, ⟨3, _⟩ => ⟨S256x128, .f32⟩
  | .local _ .vmem, ⟨4, _⟩ => ⟨S256x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2048x128, .f32⟩
  | .local _ .vmem, ⟨18, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2048x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x128_S256x128_0_0 : ∀ a, (![0, 0] : Fin 2 → Nat) a + S256x128.size a ≤ S256x128.size a
  h_S256x128 : 0 < S256x128.numel
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  concatenates_S16384x128_S16384x128_S16384x256_d1 : Shape.Concatenates [S16384x128, S16384x128] S16384x256 1
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  slices_S16384x256_S16384x128_0_0 : S16384x256.Slices ![0, 0] S16384x128
  slices_S16384x256_S16384x128_0_128 : S16384x256.Slices ![0, 128] S16384x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  dot_S256x8192_S8192x128_S256x128_1_0_0_1_n_n_wf : DotDims.WF S256x8192 S8192x128 S256x128 [1] [0] [0] [1] [] []
  scatter_S16384_S524288x1_S524288_n_0_0_1_wf : ScatterDims.WF S16384 S524288x1 S524288 [] [0] [0] 1
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x8192.size a
  hwx0_0 : ∀ i : grid0.Coords, EltTy.bits .f32 = 32 ∨ (Rect.block (s := S16384x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x128.size a ≤ S16384x128.size a
  hwx1_10 : ∀ i : grid1.Coords, EltTy.bits .f32 = 32 ∨ (Rect.block (s := S16384x128) S2048x128.size (cc1_transform_10 i) (hinb1_10 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S2048x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16384x128 : Shape := ⟨2, ![16384, 128]⟩
abbrev S8192x128 : Shape := ⟨2, ![8192, 128]⟩
abbrev S16384x8192 : Shape := ⟨2, ![16384, 8192]⟩
abbrev S128x128 : Shape := ⟨2, ![128, 128]⟩
abbrev S128 : Shape := ⟨1, ![128]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S524288x128 : Shape := ⟨2, ![524288, 128]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S16384x128, .f32⟩
  | 1 => ⟨S8192x128, .f32⟩
  | 2 => ⟨S16384x8192, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S524288, .i32⟩
  | 12 => ⟨S524288, .i32⟩
  | 13 => ⟨S_, .f32⟩
  | 14 => ⟨S524288, .f32⟩
  | 15 => ⟨S_, .f32⟩
  | 16 => ⟨S16384, .f32⟩
  | 17 => ⟨S524288x1, .i32⟩
  | 18 => ⟨S16384, .f32⟩
  | 19 => ⟨S_, .f32⟩
  | 20 => ⟨S16384, .f32⟩
  | 21 => ⟨S16384, .f32⟩
  | 22 => ⟨S_, .f32⟩
  | 23 => ⟨S16384, .f32⟩
  | 24 => ⟨S524288x1, .i32⟩
  | 25 => ⟨S16384, .f32⟩
  | 26 => ⟨S_, .f32⟩
  | 27 => ⟨S16384, .f32⟩
  | 28 => ⟨S16384, .f32⟩
  | 29 => ⟨S16384, .f32⟩
  | 30 => ⟨S16384x1, .f32⟩
  | 31 => ⟨S16384x128, .f32⟩
  | 32 => ⟨S16384x128, .f32⟩
  | 33 => ⟨S_, .i32⟩
  | 34 => ⟨S524288, .i32⟩
  | 35 => ⟨S524288, .i1⟩
  | 36 => ⟨S_, .i32⟩
  | 37 => ⟨S524288, .i32⟩
  | 38 => ⟨S524288, .i32⟩
  | 39 => ⟨S524288, .i32⟩
  | 40 => ⟨S524288x1, .i32⟩
  | 41 => ⟨S524288x128, .f32⟩
  | 42 => ⟨S_, .f32⟩
  | 43 => ⟨S16384x128, .f32⟩
  | 44 => ⟨S524288x1, .i32⟩
  | 45 => ⟨S16384x128, .f32⟩
  | 46 => ⟨S16384x128, .f32⟩
  | 47 => ⟨S16384, .f32⟩
  | 48 => ⟨S16384x1, .f32⟩
  | 49 => ⟨S16384x128, .f32⟩
  | 50 => ⟨S16384x128, .f32⟩
  | 51 => ⟨S16384x128, .f32⟩
  | 52 => ⟨S1x128, .f32⟩
  | 53 => ⟨S16384x128, .f32⟩
  | 54 => ⟨S16384x128, .f32⟩
  | 55 => ⟨S1x128, .f32⟩
  | 56 => ⟨S16384x128, .f32⟩
  | 57 => ⟨S16384x128, .f32⟩
  | 58 => ⟨S16384x128, .f32⟩
  | 59 => ⟨S_, .f32⟩
  | 60 => ⟨S524288, .f32⟩
  | 61 => ⟨S_, .f32⟩
  | 62 => ⟨S16384, .f32⟩
  | 63 => ⟨S524288x1, .i32⟩
  | 64 => ⟨S16384, .f32⟩
  | 65 => ⟨S_, .f32⟩
  | 66 => ⟨S16384, .f32⟩
  | 67 => ⟨S16384, .f32⟩
  | 68 => ⟨S_, .f32⟩
  | 69 => ⟨S16384, .f32⟩
  | 70 => ⟨S524288x1, .i32⟩
  | 71 => ⟨S16384, .f32⟩
  | 72 => ⟨S_, .f32⟩
  | 73 => ⟨S16384, .f32⟩
  | 74 => ⟨S16384, .f32⟩
  | 75 => ⟨S16384, .f32⟩
  | 76 => ⟨S16384x1, .f32⟩
  | 77 => ⟨S16384x128, .f32⟩
  | 78 => ⟨S16384x128, .f32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S524288x1, .i32⟩
  | 87 => ⟨S524288x128, .f32⟩
  | 88 => ⟨S_, .f32⟩
  | 89 => ⟨S16384x128, .f32⟩
  | 90 => ⟨S524288x1, .i32⟩
  | 91 => ⟨S16384x128, .f32⟩
  | 92 => ⟨S16384x128, .f32⟩
  | 93 => ⟨S16384, .f32⟩
  | 94 => ⟨S16384x1, .f32⟩
  | 95 => ⟨S16384x128, .f32⟩
  | 96 => ⟨S16384x128, .f32⟩
  | 97 => ⟨S16384x128, .f32⟩
  | 98 => ⟨S1x128, .f32⟩
  | 99 => ⟨S16384x128, .f32⟩
  | 100 => ⟨S16384x128, .f32⟩
  | 101 => ⟨S1x128, .f32⟩
  | 102 => ⟨S16384x128, .f32⟩
  | 103 => ⟨S16384x128, .f32⟩
  | 104 => ⟨S16384x128, .f32⟩
  | 105 => ⟨S_, .f32⟩
  | 106 => ⟨S16384x128, .f32⟩
  | 107 => ⟨S16384x128, .f32⟩
  | 108 => ⟨S_, .f32⟩
  | 109 => ⟨S16384, .f32⟩
  | 110 => ⟨S16384x1, .f32⟩
  | 111 => ⟨S_, .f32⟩
  | 112 => ⟨S16384x1, .f32⟩
  | 113 => ⟨S16384x1, .f32⟩
  | 114 => ⟨S16384x128, .f32⟩
  | 115 => ⟨S16384x128, .f32⟩
  | 116 => ⟨S16384x128, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S16384x128, .f32⟩
  | 124 => ⟨S16384x128, .f32⟩
  | 125 => ⟨S_, .f32⟩
  | 126 => ⟨S16384x1, .f32⟩
  | 127 => ⟨S16384x1, .f32⟩
  | _ => ⟨S16384x128, .f32⟩

abbrev hbmTy0_1 (i : Nat) : BufTy := match i % 128 with
  | 0 => ⟨S16384x1, .f32⟩
  | 1 => ⟨S16384x128, .f32⟩
  | 2 => ⟨S16384x128, .f32⟩
  | 3 => ⟨S1x128, .f32⟩
  | 4 => ⟨S16384x128, .f32⟩
  | 5 => ⟨S16384x128, .f32⟩
  | 6 => ⟨S1x128, .f32⟩
  | 7 => ⟨S16384x128, .f32⟩
  | 8 => ⟨S16384x128, .f32⟩
  | 9 => ⟨S_, .f32⟩
  | 10 => ⟨S16384x128, .f32⟩
  | 11 => ⟨S16384x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_call0_cst : Ref sig .tc := ⟨.hbm, 137, rfl⟩
abbrev main_call0_v0 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S_S16384x1 : S_.BroadcastsInDim S16384x1 (![] : Fin 0 → Fin S16384x1.rank)
  scatter_S16384_S524288x1_S524288_n_0_0_1_wf : ScatterDims.WF S16384 S524288x1 S524288 [] [0] [0] 1
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x128_S16384x128_1_0_0_1_n_n_wf : DotDims.WF S16384x128 S128x128 S16384x128 [1] [0] [0] [1] [] []
  dot_S16384x8192_S8192x128_S16384x128_1_0_0_1_n_n_wf : DotDims.WF S16384x8192 S8192x128 S16384x128 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x8192_S8192x128_S16384x128_1_0_0_1_n_n : DotDims S16384x8192 S8192x128 S16384x128 where
  lhsContracting := [1]
  rhsContracting := [0]
  lhsNonContracting := [0]
  rhsNonContracting := [1]
  lhsBatch := []
  rhsBatch := []
  wf := dot_S16384x8192_S8192x128_S16384x128_1_0_0_1_n_n_wf

class Facts : Prop extends Facts₀ where

variable [Facts]
-- ==== Proof.KernelRun.lean ====
/-
  The run of the two-call program with its result named.  The program is four segments: the host
  operations before the first call, the first call (the incidence product, 64 row blocks), the host
  operations between the calls (degrees, the edge gather and scatter, the column cut), and the second
  call (projection, mixing, normalisation and rectifier, 8 row blocks).  Every weakly fair execution
  ends with the result buffer holding what the second call's write-backs leave of its output array
  at that call's entry contents, and with every argument array as launched.
-/
import proofs.«139378_j23613730193937_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four segments, the last thread state read against the final memory: the result
    buffer is the second call's output array after its last write-back, each argument is untouched. -/
theorem run_main : θ_run defs (onTc (τ := τ) (main (F := F))) ⟨m, fun _ => 0, ρ⟩ (fun r => ∀ c : Dev nD,
      r.2.mem ((c.tc : Thread nD τ).loc main_v43) = (dat1 (V3 m ρ) c).arrAt 10 cfg1.N
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v43 (by decide))).trans (W4_arr m ρ c 10),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunValue

end
-- ==== Proof.FuseSpec.lean ====
/-
  The second call's mathematics, stated once on the extended reals with no program in sight.

  A node's output row is computed from two aggregated feature rows `a` (the node's own level) and `f`
  (the level above, brought down by the incidence product):

    mix q   = ((Σ_k a k · Wc(k,q) + bc q) · cw q + (Σ_k f k · Wf(k,q) + bf q) · tw q) · ½
    out q   = max (((mix q − μ) · rsqrt (σ² + ε)) · γ q + β q) 0,
    μ  = (Σ_k mix k) / 128,   σ² = (Σ_k (mix k − μ)²) / 128.

  Every row is a function of the SAME row of `a` and `f` alone, which is what lets a row block of the
  arrays be normalised on its own.
-/
import Idealize.ShloMosaic.PureOps.Ideal
import Idealize.ShloMosaic.Lib.ValueIdx

noncomputable section

namespace Cert.FuseSpec

open Idealize.ShloMosaic Idealize.ShloMosaic.ValueIdx
open scoped BigOperators

/-- The f32 words the two programs share: one half, the row width 128, the variance floor, zero. -/
abbrev half : EReal := Ideal.ofBits .f32 0x3F000000#32
abbrev width : EReal := Ideal.ofBits .f32 0x43000000#32
abbrev floor : EReal := Ideal.ofBits .f32 0x3727C5AC#32
abbrev zero : EReal := Ideal.ofBits .f32 0x00000000#32

/-- One row of the mean of the two scaled projections. -/
def mixRow {K N : ℕ} (a f : Fin K → EReal) (Wc Wf : (⟨2, ![K, N]⟩ : Shape).Idx → EReal)
    (bc bf cw tw : Fin N → EReal) (q : Fin N) : EReal :=
  (((∑ k : Fin K, a k * Wc (ix2 k q)) + bc q) * cw q + ((∑ k : Fin K, f k * Wf (ix2 k q)) + bf q) * tw q) * half

/-- A row's mean. -/
def mean {N : ℕ} (r : Fin N → EReal) : EReal := Ideal.div (∑ k : Fin N, r k) width

/-- A row normalised to zero mean and unit variance, scaled, shifted and rectified. -/
def normRow {N : ℕ} (r g b : Fin N → EReal) (q : Fin N) : EReal :=
  max (((r q - mean r) * Ideal.rsqrt (Ideal.div (∑ k : Fin N, (r k - mean r) * (r k - mean r)) width + floor)) * g q + b q) zero

/-- The whole output array: row `p` is the normalised mix of rows `p` of the two aggregates. -/
def fused {M K N : ℕ} (a f : (⟨2, ![M, K]⟩ : Shape).Idx → EReal) (Wc Wf : (⟨2, ![K, N]⟩ : Shape).Idx → EReal)
    (bc bf cw tw g b : Fin N → EReal) : (⟨2, ![M, N]⟩ : Shape).Idx → EReal :=
  fun i => normRow (mixRow (fun k => a (ix2 (i 0) k)) (fun k => f (ix2 (i 0) k)) Wc Wf bc bf cw tw) g b (i 1)

theorem fused_apply {M K N : ℕ} (a f : (⟨2, ![M, K]⟩ : Shape).Idx → EReal) (Wc Wf : (⟨2, ![K, N]⟩ : Shape).Idx → EReal)
    (bc bf cw tw g b : Fin N → EReal) (p : Fin M) (q : Fin N) :
    fused a f Wc Wf bc bf cw tw g b (ix2 p q)
      = normRow (mixRow (fun k => a (ix2 p k)) (fun k => f (ix2 p k)) Wc Wf bc bf cw tw) g b q := rfl

/-- A row block read on its own: when row `r` of the blocks is row `p` of the arrays, the block's output
    at `(r, q)` is the arrays' output at `(p, q)`. -/
theorem fused_tile {M M' K N : ℕ} (a f : (⟨2, ![M, K]⟩ : Shape).Idx → EReal) (A F' : (⟨2, ![M', K]⟩ : Shape).Idx → EReal)
    (Wc Wf : (⟨2, ![K, N]⟩ : Shape).Idx → EReal) (bc bf cw tw g b : Fin N → EReal) (r : Fin M) (p : Fin M') (q : Fin N)
    (ha : ∀ k : Fin K, a (ix2 r k) = A (ix2 p k)) (hf : ∀ k : Fin K, f (ix2 r k) = F' (ix2 p k)) :
    fused a f Wc Wf bc bf cw tw g b (ix2 r q) = fused A F' Wc Wf bc bf cw tw g b (ix2 p q) := by
  rw [fused_apply, fused_apply, show (fun k => a (ix2 r k)) = fun k => A (ix2 p k) from funext ha,
    show (fun k => f (ix2 r k)) = fun k => F' (ix2 p k) from funext hf]

end Cert.FuseSpec

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.KernelBlock.lean ====
/-
  The two bodies' arithmetic on one block, at exact arithmetic.

  First call: a block of 256 incidence rows times the whole coarse feature array — entry `(r, q)` of the
  stored block is `Σ_k inc(r,k) · h(k,q)`; narrowing an operand to a shorter float format changes nothing
  over the extended reals.

  Second call: from 2048 rows of the two aggregates the body forms, row by row, the two projections
  with their biases and scales, their mean, the row's mean and variance, and the normalised, scaled,
  shifted and rectified row: exactly `FuseSpec.fused` of the blocks.
-/
import proofs.«139378_j23613730193937_2_alg».proof.Proof.Gen.KernelIdeal.Skeleton
import proofs.«139378_j23613730193937_2_alg».proof.Proof.FuseSpec
import proofs.«139378_j23613730193937_2_alg».proof.Proof.LibPlainDot
import proofs.«139378_j23613730193937_2_alg».proof.Proof.LibRows
import proofs.«139378_j23613730193937_2_alg».proof.Proof.LibLayout
import proofs.«139378_j23613730193937_2_alg».proof.Proof.LibColsJoin
import Idealize.ShloMosaic.Lib.Pipeline.Value
import Idealize.ShloMosaic.Lib.ValueLayout

noncomputable section

namespace Cert.KernelIdeal.Blocks

open Cert.KernelIdeal Cert.KernelIdeal.Gen Cert.FuseSpec
open Idealize.ShloMosaic Idealize.ShloMosaic.ValueIdx Idealize.ShloMosaic.TcCoe
open scoped BigOperators

/-- A `[1, n]` block as the row it holds. -/
abbrev rowOf {n : ℕ} (r : (⟨2, ![1, n]⟩ : Shape).Idx → EReal) : Fin n → EReal := fun q => r (ix2 (0 : Fin 1) q)

/-- The first body's stored block, entry by entry. -/
theorem product_block (v0 : Vec Ideal S256x8192 .f32) (v2 : Vec Ideal S8192x128 .bf16) (p : Fin 256) (q : Fin 128) :
    k0_pay1 (F := Ideal) v0 v2 (ix2 p q) = ∑ k : Fin 8192, v0 (ix2 p k) * v2 (ix2 k q) := by
  unfold k0_pay1
  refine (Cert.LibPlainDot.matmul_plain_apply dot_S256x8192_S8192x128_S256x128_1_0_0_1_n_n rfl rfl rfl rfl rfl rfl none _ _ p q).trans ?_
  refine Finset.sum_congr rfl fun k _ => ?_
  rw [truncf_apply, shapeCast_self]

/-- `math.rsqrt` of a vector, entry by entry. -/
theorem rsqrt_at {s : Shape} {φ : FTy} (a : FVec Ideal s φ) (i : s.Idx) : rsqrt a i = Ideal.rsqrt (a i) := rfl

section Fuse

variable (v0 v3 : Vec Ideal S2048x128 .f32) (v6 v8 : Vec Ideal S128x128 .f32) (v11 v15 v20 v24 v47 v51 : Vec Ideal S1x128 .f32)

/-- The mean of the two scaled projections of a block, as the body spells it: two products into zero
    accumulators, each with its bias row and its scale row repeated over the rows, added and halved. -/
def mixBlk : FVec Ideal S2048x128 .f32 :=
  mulf (addf
      (mulf (addf (matmul dot_S2048x128_S128x128_S2048x128_1_0_0_1_n_n none
            (truncf .bf16 (shapeCast S2048x128 v0 shapeCasts_S2048x128_S2048x128) bitsLt_bf16_f32) (truncf .bf16 v6 bitsLt_bf16_f32)
            (constant S2048x128 .f32 0x00000000#32))
          (broadcastTo S2048x128 (shapeCast S1x128 v11 shapeCasts_S1x128_S1x128) broadcasts_S1x128_S2048x128))
        (broadcastTo S2048x128 (shapeCast S1x128 v15 shapeCasts_S1x128_S1x128) broadcasts_S1x128_S2048x128))
      (mulf (addf (matmul dot_S2048x128_S128x128_S2048x128_1_0_0_1_n_n none
            (truncf .bf16 (shapeCast S2048x128 v3 shapeCasts_S2048x128_S2048x128) bitsLt_bf16_f32) (truncf .bf16 v8 bitsLt_bf16_f32)
            (constant S2048x128 .f32 0x00000000#32))
          (broadcastTo S2048x128 (shapeCast S1x128 v20 shapeCasts_S1x128_S1x128) broadcasts_S1x128_S2048x128))
        (broadcastTo S2048x128 (shapeCast S1x128 v24 shapeCasts_S1x128_S1x128) broadcasts_S1x128_S2048x128)))
    (broadcast S2048x128 (Scalar.ofBits (F := Ideal) .f32 0x3F000000#32))

/-- Entry `(r, q)` of that block is the spec's mixed row `r` at `q`. -/
theorem mixBlk_apply (r : Fin 2048) (q : Fin 128) :
    mixBlk v0 v3 v6 v8 v11 v15 v20 v24 (ix2 r q)
      = mixRow (fun k => v0 (ix2 r k)) (fun k => v3 (ix2 r k)) v6 v8 (rowOf v11) (rowOf v20) (rowOf v15) (rowOf v24) q := by
  unfold mixBlk mixRow
  simp only [mulf_apply, addf_apply, broadcast_apply]
  have hm : ∀ (x : Vec Ideal S2048x128 .f32) (w : Vec Ideal S128x128 .f32),
      matmul (F := Ideal) dot_S2048x128_S128x128_S2048x128_1_0_0_1_n_n none
          (truncf .bf16 (shapeCast S2048x128 x shapeCasts_S2048x128_S2048x128) bitsLt_bf16_f32) (truncf .bf16 w bitsLt_bf16_f32)
          (constant S2048x128 .f32 0x00000000#32) (ix2 r q)
        = ∑ k : Fin 128, x (ix2 r k) * w (ix2 k q) := fun x w =>
    (Cert.LibPlainDot.matmul_plain_apply dot_S2048x128_S128x128_S2048x128_1_0_0_1_n_n rfl rfl rfl rfl rfl rfl none
      (truncf .bf16 (shapeCast S2048x128 x shapeCasts_S2048x128_S2048x128) bitsLt_bf16_f32) (truncf .bf16 w bitsLt_bf16_f32) r q).trans
      (Finset.sum_congr rfl fun k _ => by rw [truncf_apply, truncf_apply, shapeCast_self])
  rw [hm v0 v6, hm v3 v8]
  simp only [Cert.LibColsJoin.bcast_row (by decide : (128 : ℕ) ≠ 1), shapeCast_self]
  rfl

/-- A block's row sums, as both reductions of the body spell them. -/
def rowSums (v : FVec Ideal S2048x128 .f32) : FVec Ideal S2048 .f32 :=
  multiReduction .add [1] S2048 v 0x00000000#32 reduces_S2048x128_S2048 (.inl rfl)
    (show (0x00000000#32 : BitVec 32) = FKind.add.neutral .f32 (.inl rfl) from rfl)

theorem rowSums_apply (v : FVec Ideal S2048x128 .f32) (r : Fin 2048) : rowSums v (ix1 r) = ∑ s : Fin 128, v (ix2 r s) := by
  unfold rowSums
  exact rowSum_apply v _ _ _ _ r

/-- A block's row sums divided by the width, one per row, as a column. -/
def rowMeans (v : FVec Ideal S2048x128 .f32) : FVec Ideal S2048x1 .f32 :=
  divf (shapeCast S2048x1 (rowSums v) shapeCasts_S2048_S2048x1) (broadcast S2048x1 (Scalar.ofBits (F := Ideal) .f32 0x43000000#32))

theorem rowMeans_apply (v : FVec Ideal S2048x128 .f32) (r : Fin 2048) :
    rowMeans v (ix2 r (0 : Fin 1)) = Ideal.div (∑ s : Fin 128, v (ix2 r s)) width := by
  unfold rowMeans
  rw [divf_apply, shapeCast_a_a1_apply, rowSums_apply, broadcast_apply]
  rfl

/-- The body's centred block is the mixed block less each row's mean repeated along the row. -/
theorem pay2_unfold :
    k1_pay2 (F := Ideal) v0 v3 v6 v8 v11 v15 v20 v24
      = subf (mixBlk v0 v3 v6 v8 v11 v15 v20 v24)
          (broadcastTo S2048x128 (rowMeans (mixBlk v0 v3 v6 v8 v11 v15 v20 v24)) broadcasts_S2048x1_S2048x128) := rfl

/-- Entry `(r, q)` of the centred block: the mixed row at `q` less the mixed row's mean. -/
theorem pay2_apply (r : Fin 2048) (q : Fin 128) :
    k1_pay2 (F := Ideal) v0 v3 v6 v8 v11 v15 v20 v24 (ix2 r q)
      = mixRow (fun k => v0 (ix2 r k)) (fun k => v3 (ix2 r k)) v6 v8 (rowOf v11) (rowOf v20) (rowOf v15) (rowOf v24) q
        - mean (mixRow (fun k => v0 (ix2 r k)) (fun k => v3 (ix2 r k)) v6 v8 (rowOf v11) (rowOf v20) (rowOf v15) (rowOf v24)) := by
  rw [pay2_unfold, subf_apply, broadcastTo_a1_ab_apply, rowMeans_apply]
  simp only [mixBlk_apply]
  rfl

/-- The body's last stage on a centred block `d` and its square `e`: each row of `d` scaled by the inverse
    root of its variance (the row mean of `e`, floored), then by the scale row, shifted and rectified. -/
theorem pay1_unfold (d e : FVec Ideal S2048x128 .f32) :
    k1_pay1 (F := Ideal) d e v47 v51
      = maximumf (addf (mulf (mulf d (broadcastTo S2048x128
            (rsqrt (addf (rowMeans e) (broadcast S2048x1 (Scalar.ofBits (F := Ideal) .f32 0x3727C5AC#32)))) broadcasts_S2048x1_S2048x128))
          (broadcastTo S2048x128 (shapeCast S1x128 v47 shapeCasts_S1x128_S1x128) broadcasts_S1x128_S2048x128))
          (broadcastTo S2048x128 (shapeCast S1x128 v51 shapeCasts_S1x128_S1x128) broadcasts_S1x128_S2048x128))
        (broadcast S2048x128 (Scalar.ofBits (F := Ideal) .f32 0x00000000#32)) := rfl

theorem pay1_apply (d e : FVec Ideal S2048x128 .f32) (r : Fin 2048) (q : Fin 128) :
    k1_pay1 (F := Ideal) d e v47 v51 (ix2 r q)
      = max ((d (ix2 r q) * Ideal.rsqrt (Ideal.div (∑ s : Fin 128, e (ix2 r s)) width + floor)) * rowOf v47 q + rowOf v51 q) zero := by
  rw [pay1_unfold, maximumf_apply, addf_apply, mulf_apply, mulf_apply, broadcastTo_a1_ab_apply, rsqrt_at, addf_apply,
    rowMeans_apply, broadcast_apply, broadcast_apply, Cert.LibColsJoin.bcast_row (by decide : (128 : ℕ) ≠ 1),
    Cert.LibColsJoin.bcast_row (by decide : (128 : ℕ) ≠ 1), shapeCast_self, shapeCast_self]
  rfl

/-- The second body's stored block is the spec's output of the loaded blocks. -/
theorem fuse_block :
    k1_pay1 (F := Ideal) (k1_pay2 v0 v3 v6 v8 v11 v15 v20 v24) (k1_pay3 v0 v3 v6 v8 v11 v15 v20 v24) v47 v51
      = fused v0 v3 v6 v8 (rowOf v11) (rowOf v20) (rowOf v15) (rowOf v24) (rowOf v47) (rowOf v51) := by
  funext j
  obtain ⟨r, q, rfl⟩ : ∃ (r : Fin 2048) (q : Fin 128), j = ix2 r q := ⟨j 0, j 1, eq_ix2 j⟩
  rw [fused_apply, pay1_apply]
  unfold k1_pay3 normRow
  simp only [mulf_apply, pay2_apply]

/-- The stored block against whole arrays: when row `r` of the two loaded aggregate blocks is row `p` of the
    arrays `A` and `F'`, entry `(r, q)` of the stored block is the arrays' output at `(p, q)`. -/
theorem fuse_tile (A F' : (⟨2, ![16384, 128]⟩ : Shape).Idx → EReal) (r : Fin 2048) (p : Fin 16384) (q : Fin 128)
    (ha : ∀ k : Fin 128, v0 (ix2 r k) = A (ix2 p k)) (hf : ∀ k : Fin 128, v3 (ix2 r k) = F' (ix2 p k)) :
    k1_pay1 (F := Ideal) (k1_pay2 v0 v3 v6 v8 v11 v15 v20 v24) (k1_pay3 v0 v3 v6 v8 v11 v15 v20 v24) v47 v51 (ix2 r q)
      = fused A F' v6 v8 (rowOf v11) (rowOf v20) (rowOf v15) (rowOf v24) (rowOf v47) (rowOf v51) (ix2 p q) :=
  (congrFun (fuse_block v0 v3 v6 v8 v11 v15 v20 v24 v47 v51) (ix2 r q)).trans
    (fused_tile v0 v3 A F' v6 v8 (rowOf v11) (rowOf v20) (rowOf v15) (rowOf v24) (rowOf v47) (rowOf v51) r p q ha hf)

end Fuse

end Cert.KernelIdeal.Blocks

end
-- ==== Proof.Region1.lean ====
/-
  The second call's output array after its 8 write-backs.

  Grid point `t` holds rows `2048·t … 2048·t + 2047` of the two aggregates and the whole of the two weight
  matrices and of the six rows (biases, scales, the normalisation's scale and shift), and writes back the
  same rows of the output.  A row of the output depends on the same row of the aggregates only
  (`FuseSpec.fused_tile`), so each block is the restriction of `FuseSpec.fused` of the whole arrays, and
  the 8 blocks tile the 16384 rows.
-/
import proofs.«139378_j23613730193937_2_alg».proof.Proof.Gen.KernelIdeal.Frame
import proofs.«139378_j23613730193937_2_alg».proof.Proof.KernelBlock
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators
open Cert.FuseSpec Cert.KernelIdeal.Blocks

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point `t`: the two aggregates' rows move with the output rows, the
    weights and the rows stay whole, and the output's row block stays below 8. -/
theorem block_places : ∀ t : Fin cfg1.N, win1_0.index t (0 : Fin 2) = win1_10.index t (0 : Fin 2)
    ∧ win1_0.index t (1 : Fin 2) = 0 ∧ win1_1.index t (0 : Fin 2) = win1_10.index t (0 : Fin 2) ∧ win1_1.index t (1 : Fin 2) = 0
    ∧ win1_2.index t = ![0, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0]
    ∧ win1_10.index t (1 : Fin 2) = 0 ∧ win1_10.index t (0 : Fin 2) ≤ 7 :=
  (by decide +kernel : ∀ t : Fin grid1.N, _)

/-- Every one of the 8 row blocks is some point's. -/
theorem block_onto : ∀ q0 : Fin 8, ∃ t : Fin cfg1.N, win1_10.index t = ![q0.val, 0] :=
  (by decide +kernel : ∀ q0 : Fin 8, ∃ t : Fin grid1.N, win1_10.index t = ![q0.val, 0])

/-! A window whose block is the whole array holds, at every point, the array itself. -/

theorem whole2 (c : Dev nD) (t : Fin cfg1.N) : iblk1 V c 2 t = V c main_arg3 := by
  have e := (block_places t).2.2.2.2.1
  funext y
  show V c main_arg3 (((cfg1.win 2).blk t).view.emb y) = V c main_arg3 y
  refine congrArg _ (funext fun a => Fin.ext ?_)
  match a with
  | ⟨0, _⟩ => show win1_2.index t (0 : Fin 2) * 128 + 1 * (y 0).val = (y 0).val; rw [e]; show 0 * 128 + 1 * (y 0).val = _; omega
  | ⟨1, _⟩ => show win1_2.index t (1 : Fin 2) * 128 + 1 * (y 1).val = (y 1).val; rw [e]; show 0 * 128 + 1 * (y 1).val = _; omega

theorem whole4 (c : Dev nD) (t : Fin cfg1.N) : iblk1 V c 4 t = V c main_arg5 := by
  have e := (block_places t).2.2.2.2.2.2.1
  funext y
  show V c main_arg5 (((cfg1.win 4).blk t).view.emb y) = V c main_arg5 y
  refine congrArg _ (funext fun a => Fin.ext ?_)
  match a with
  | ⟨0, _⟩ => show win1_4.index t (0 : Fin 2) * 128 + 1 * (y 0).val = (y 0).val; rw [e]; show 0 * 128 + 1 * (y 0).val = _; omega
  | ⟨1, _⟩ => show win1_4.index t (1 : Fin 2) * 128 + 1 * (y 1).val = (y 1).val; rw [e]; show 0 * 128 + 1 * (y 1).val = _; omega

theorem whole3 (c : Dev nD) (t : Fin cfg1.N) : iblk1 V c 3 t = V c main_v37 := by
  have e := (block_places t).2.2.2.2.2.1
  funext y
  show V c main_v37 (((cfg1.win 3).blk t).view.emb y) = V c main_v37 y
  refine congrArg _ (funext fun a => Fin.ext ?_)
  match a with
  | ⟨0, _⟩ => show win1_3.index t (0 : Fin 2) * 1 + 1 * (y 0).val = (y 0).val; rw [e]; show 0 * 1 + 1 * (y 0).val = _; omega
  | ⟨1, _⟩ => show win1_3.index t (1 : Fin 2) * 128 + 1 * (y 1).val = (y 1).val; rw [e]; show 0 * 128 + 1 * (y 1).val = _; omega

theorem whole5 (c : Dev nD) (t : Fin cfg1.N) : iblk1 V c 5 t = V c main_v38 := by
  have e := (block_places t).2.2.2.2.2.2.2.1
  funext y
  show V c main_v38 (((cfg1.win 5).blk t).view.emb y) = V c main_v38 y
  refine congrArg _ (funext fun a => Fin.ext ?_)
  match a with
  | ⟨0, _⟩ => show win1_5.index t (0 : Fin 2) * 1 + 1 * (y 0).val = (y 0).val; rw [e]; show 0 * 1 + 1 * (y 0).val = _; omega
  | ⟨1, _⟩ => show win1_5.index t (1 : Fin 2) * 128 + 1 * (y 1).val = (y 1).val; rw [e]; show 0 * 128 + 1 * (y 1).val = _; omega

theorem whole6 (c : Dev nD) (t : Fin cfg1.N) : iblk1 V c 6 t = V c main_v39 := by
  have e := (block_places t).2.2.2.2.2.2.2.2.1
  funext y
  show V c main_v39 (((cfg1.win 6).blk t).view.emb y) = V c main_v39 y
  refine congrArg _ (funext fun a => Fin.ext ?_)
  match a with
  | ⟨0, _⟩ => show win1_6.index t (0 : Fin 2) * 1 + 1 * (y 0).val = (y 0).val; rw [e]; show 0 * 1 + 1 * (y 0).val = _; omega
  | ⟨1, _⟩ => show win1_6.index t (1 : Fin 2) * 128 + 1 * (y 1).val = (y 1).val; rw [e]; show 0 * 128 + 1 * (y 1).val = _; omega

theorem whole7 (c : Dev nD) (t : Fin cfg1.N) : iblk1 V c 7 t = V c main_v40 := by
  have e := (block_places t).2.2.2.2.2.2.2.2.2.1
  funext y
  show V c main_v40 (((cfg1.win 7).blk t).view.emb y) = V c main_v40 y
  refine congrArg _ (funext fun a => Fin.ext ?_)
  match a with
  | ⟨0, _⟩ => show win1_7.index t (0 : Fin 2) * 1 + 1 * (y 0).val = (y 0).val; rw [e]; show 0 * 1 + 1 * (y 0).val = _; omega
  | ⟨1, _⟩ => show win1_7.index t (1 : Fin 2) * 128 + 1 * (y 1).val = (y 1).val; rw [e]; show 0 * 128 + 1 * (y 1).val = _; omega

theorem whole8 (c : Dev nD) (t : Fin cfg1.N) : iblk1 V c 8 t = V c main_v41 := by
  have e := (block_places t).2.2.2.2.2.2.2.2.2.2.1
  funext y
  show V c main_v41 (((cfg1.win 8).blk t).view.emb y) = V c main_v41 y
  refine congrArg _ (funext fun a => Fin.ext ?_)
  match a with
  | ⟨0, _⟩ => show win1_8.index t (0 : Fin 2) * 1 + 1 * (y 0).val = (y 0).val; rw [e]; show 0 * 1 + 1 * (y 0).val = _; omega
  | ⟨1, _⟩ => show win1_8.index t (1 : Fin 2) * 128 + 1 * (y 1).val = (y 1).val; rw [e]; show 0 * 128 + 1 * (y 1).val = _; omega

theorem whole9 (c : Dev nD) (t : Fin cfg1.N) : iblk1 V c 9 t = V c main_v42 := by
  have e := (block_places t).2.2.2.2.2.2.2.2.2.2.2.1
  funext y
  show V c main_v42 (((cfg1.win 9).blk t).view.emb y) = V c main_v42 y
  refine congrArg _ (funext fun a => Fin.ext ?_)
  match a with
  | ⟨0, _⟩ => show win1_9.index t (0 : Fin 2) * 1 + 1 * (y 0).val = (y 0).val; rw [e]; show 0 * 1 + 1 * (y 0).val = _; omega
  | ⟨1, _⟩ => show win1_9.index t (1 : Fin 2) * 128 + 1 * (y 1).val = (y 1).val; rw [e]; show 0 * 128 + 1 * (y 1).val = _; omega

/-- What point `t` writes back is block `t` of the spec's output of the arrays as the call finds them. -/
theorem flushed_eq (c : Dev nD) (t : Fin cfg1.N) :
    (dat1 V c).flushed 10 t = ((cfg1.win 10).blk t).view.read (Elt Ideal)
      (fused (V c main_v35) (V c main_v36) (V c main_arg3) (V c main_arg5) (rowOf (V c main_v37)) (rowOf (V c main_v38))
        (rowOf (V c main_v39)) (rowOf (V c main_v40)) (rowOf (V c main_v41)) (rowOf (V c main_v42))) := by
  show (cfg1.win 10).cut (grid1.coords t) ((dat1 V c).after 10 t) = _
  rw [after1_10]
  unfold out1_10
  rw [View.canon_unit_zero origin]
  simp only [View.ld_unit_zero (S := S2048x128) origin, View.ld_unit_zero (S := S128x128) origin, View.ld_unit_zero (S := S1x128) origin]
  obtain ⟨e0, e1, e2, e3, e4, e5, e6, e7, e8, e9, e10, e11, e12, e13⟩ := block_places t
  funext j
  obtain ⟨r, q, rfl⟩ : ∃ (r : Fin 2048) (q : Fin 128), j = ix2 r q := ⟨j 0, j 1, eq_ix2 j⟩
  have hlt : win1_10.index t (0 : Fin 2) * 2048 + r.val < 16384 := by omega
  have hp : ((cfg1.win 10).blk t).view.emb (ix2 r q) = ix2 (⟨win1_10.index t (0 : Fin 2) * 2048 + r.val, hlt⟩ : Fin 16384) q := by
    funext a; apply Fin.ext
    match a with
    | ⟨0, _⟩ => show win1_10.index t (0 : Fin 2) * 2048 + 1 * r.val = win1_10.index t (0 : Fin 2) * 2048 + r.val; omega
    | ⟨1, _⟩ => show win1_10.index t (1 : Fin 2) * 128 + 1 * q.val = q.val; omega
  have ha : ∀ k : Fin 128, iblk1 V c 0 t (ix2 r k)
      = V c main_v35 (ix2 (⟨win1_10.index t (0 : Fin 2) * 2048 + r.val, hlt⟩ : Fin 16384) k) := fun k => by
    show V c main_v35 (((cfg1.win 0).blk t).view.emb (ix2 r k)) = _
    have h : ((cfg1.win 0).blk t).view.emb (ix2 r k) = ix2 (⟨win1_10.index t (0 : Fin 2) * 2048 + r.val, hlt⟩ : Fin 16384) k := by
      funext a; apply Fin.ext
      match a with
      | ⟨0, _⟩ => show win1_0.index t (0 : Fin 2) * 2048 + 1 * r.val = win1_10.index t (0 : Fin 2) * 2048 + r.val; omega
      | ⟨1, _⟩ => show win1_0.index t (1 : Fin 2) * 128 + 1 * k.val = k.val; omega
    rw [h]
  have hf : ∀ k : Fin 128, iblk1 V c 1 t (ix2 r k)
      = V c main_v36 (ix2 (⟨win1_10.index t (0 : Fin 2) * 2048 + r.val, hlt⟩ : Fin 16384) k) := fun k => by
    show V c main_v36 (((cfg1.win 1).blk t).view.emb (ix2 r k)) = _
    have h : ((cfg1.win 1).blk t).view.emb (ix2 r k) = ix2 (⟨win1_10.index t (0 : Fin 2) * 2048 + r.val, hlt⟩ : Fin 16384) k := by
      funext a; apply Fin.ext
      match a with
      | ⟨0, _⟩ => show win1_1.index t (0 : Fin 2) * 2048 + 1 * r.val = win1_10.index t (0 : Fin 2) * 2048 + r.val; omega
      | ⟨1, _⟩ => show win1_1.index t (1 : Fin 2) * 128 + 1 * k.val = k.val; omega
    rw [h]
  refine (fuse_tile (iblk1 V c 0 t) (iblk1 V c 1 t) (iblk1 V c 2 t) (iblk1 V c 4 t) (iblk1 V c 3 t) (iblk1 V c 6 t)
    (iblk1 V c 5 t) (iblk1 V c 7 t) (iblk1 V c 8 t) (iblk1 V c 9 t) (V c main_v35) (V c main_v36) r
    (⟨win1_10.index t (0 : Fin 2) * 2048 + r.val, hlt⟩ : Fin 16384) q ha hf).trans ?_
  rw [whole2 V c t, whole4 V c t, whole3 V c t, whole5 V c t, whole6 V c t, whole7 V c t, whole8 V c t, whole9 V c t]
  show _ = fused (V c main_v35) (V c main_v36) (V c main_arg3) (V c main_arg5) (rowOf (V c main_v37)) (rowOf (V c main_v38))
    (rowOf (V c main_v39)) (rowOf (V c main_v40)) (rowOf (V c main_v41)) (rowOf (V c main_v42)) (((cfg1.win 10).blk t).view.emb (ix2 r q))
  rw [hp]

/-- An index of the output array lies in point `t`'s block iff each coordinate is in the block's range. -/
theorem mem_blk (t : Fin cfg1.N) (i : S16384x128.Idx) :
    i ∈ ((cfg1.win 10).blk t).view.set ↔ ∀ a : Fin 2, win1_10.index t a * S2048x128.size a ≤ (i a).val ∧ (i a).val < win1_10.index t a * S2048x128.size a + S2048x128.size a := by
  show i ∈ ((View.whole main_v43).slice (win1_10.rect t)).set ↔ _
  rw [View.set_slice_whole, Rect.mem_set_unit]
  exact Iff.rfl

/-- Row `p` is covered by the point whose block is `p / 2048`. -/
theorem covered (i : S16384x128.Idx) : ∃ t : Fin cfg1.N, (cfg1.win 10).flush t = true ∧ i ∈ ((cfg1.win 10).blk t).view.set := by
  have hi0 : (i 0).val < 16384 := (i 0).isLt
  have hi1 : (i 1).val < 128 := (i 1).isLt
  obtain ⟨t, ht⟩ := block_onto ⟨(i 0).val / 2048, by omega⟩
  have q0 : win1_10.index t (0 : Fin 2) = (i 0).val / 2048 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 2048 ≤ (i 0).val ∧ (i 0).val < win1_10.index t (0 : Fin 2) * 2048 + 2048; omega
  | ⟨1, _⟩ => show win1_10.index t (1 : Fin 2) * 128 ≤ (i 1).val ∧ (i 1).val < win1_10.index t (1 : Fin 2) * 128 + 128; omega

/-- The output array after the call: the spec's output of the arrays the call was entered with. -/
theorem final (c : Dev nD) : (dat1 V c).arrAt 10 cfg1.N
    = fused (V c main_v35) (V c main_v36) (V c main_arg3) (V c main_arg5) (rowOf (V c main_v37)) (rowOf (V c main_v38))
        (rowOf (V c main_v39)) (rowOf (V c main_v40)) (rowOf (V c main_v41)) (rowOf (V c main_v42)) :=
  (dat1 V c).arrAt_eq_of_cover 10 _ (fun t _ => flushed_eq V c t) covered

end Cert.KernelIdeal.Region1

end
-- ==== Proof.Region0.lean ====
/-
  The first call's output array after its 64 write-backs.

  Grid point `t` holds rows `256·t … 256·t + 255` of the incidence array and the whole coarse feature
  array, and writes back rows `256·t …` of the product.  The 64 blocks tile the 16384 rows, and each is
  the restriction of ONE function of the two arrays — entry `(p, q)` is `Σ_k inc(p,k) · h(k,q)` — so
  that function is what the output array holds once the last block has been written back.
-/
import proofs.«139378_j23613730193937_2_alg».proof.Proof.Gen.KernelIdeal.Frame
import proofs.«139378_j23613730193937_2_alg».proof.Proof.KernelBlock
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The product of an incidence array with a coarse feature array, entry by entry. -/
def product (A : S16384x8192.Idx → Elt Ideal .f32) (B : S8192x128.Idx → Elt Ideal .bf16) : S16384x128.Idx → Elt Ideal .f32 :=
  fun i => ∑ k : Fin 8192, A (ix2 (i 0) k) * B (ix2 k (i 1))

theorem product_apply (A : S16384x8192.Idx → Elt Ideal .f32) (B : S8192x128.Idx → Elt Ideal .bf16) (i : S16384x128.Idx) :
    product A B i = ∑ k : Fin 8192, A (ix2 (i 0) k) * B (ix2 k (i 1)) := rfl

/-- Where each window's block sits at point `t`: the incidence rows move with the output rows, every
    other block coordinate is 0, and the output's row block stays below 64. -/
theorem block_places : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 63 :=
  (by decide +kernel : ∀ t : Fin grid0.N, _)

/-- Every one of the 64 row blocks is some point's. -/
theorem block_onto : ∀ q0 : Fin 64, ∃ t : Fin cfg0.N, win0_2.index t = ![q0.val, 0] :=
  (by decide +kernel : ∀ q0 : Fin 64, ∃ t : Fin grid0.N, win0_2.index t = ![q0.val, 0])

/-- What point `t` writes back is block `t` of the product of the arrays as the call finds them. -/
theorem flushed_eq (c : Dev nD) (t : Fin cfg0.N) :
    (dat0 V c).flushed 2 t = ((cfg0.win 2).blk t).view.read (Elt Ideal) (product (V c main_arg2) (V c main_v0)) := by
  show (cfg0.win 2).cut (grid0.coords t) ((dat0 V c).after 2 t) = _
  rw [after0_2]
  unfold out0_2
  rw [View.canon_unit_zero origin]
  simp only [View.ld_unit_zero (S := S256x8192) origin, View.ld_unit_zero (S := S8192x128) origin]
  obtain ⟨e0, e1, e2, e3, e4, e5⟩ := block_places t
  funext j
  obtain ⟨r, q, rfl⟩ : ∃ (r : Fin 256) (q : Fin 128), j = ix2 r q := ⟨j 0, j 1, eq_ix2 j⟩
  refine (Blocks.product_block (iblk0 V c 0 t) (iblk0 V c 1 t) r q).trans ?_
  show _ = product (V c main_arg2) (V c main_v0) (((cfg0.win 2).blk t).view.emb (ix2 r q))
  rw [product_apply]
  refine Finset.sum_congr rfl fun k _ => ?_
  have h0 : ((cfg0.win 0).blk t).view.emb (ix2 r k) = ix2 ((((cfg0.win 2).blk t).view.emb (ix2 r q)) 0) k := by
    funext a; apply Fin.ext
    match a with
    | ⟨0, _⟩ => show win0_0.index t (0 : Fin 2) * 256 + 1 * r.val = win0_2.index t (0 : Fin 2) * 256 + 1 * r.val; omega
    | ⟨1, _⟩ => show win0_0.index t (1 : Fin 2) * 8192 + 1 * k.val = k.val; omega
  have h1 : ((cfg0.win 1).blk t).view.emb (ix2 k q) = ix2 k ((((cfg0.win 2).blk t).view.emb (ix2 r q)) 1) := by
    funext a; apply Fin.ext
    match a with
    | ⟨0, _⟩ => show win0_1.index t (0 : Fin 2) * 8192 + 1 * k.val = k.val; omega
    | ⟨1, _⟩ => show win0_1.index t (1 : Fin 2) * 128 + 1 * q.val = win0_2.index t (1 : Fin 2) * 128 + 1 * q.val; omega
  refine congrArg₂ (· * ·) ?_ ?_
  · show V c main_arg2 (((cfg0.win 0).blk t).view.emb (ix2 r k)) = _
    rw [h0]; rfl
  · show V c main_v0 (((cfg0.win 1).blk t).view.emb (ix2 k q)) = _
    rw [h1]; rfl

/-- An index of the output array lies in point `t`'s block iff each coordinate is in the block's range. -/
theorem mem_blk (t : Fin cfg0.N) (i : S16384x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v1).slice (win0_2.rect t)).set ↔ _
  rw [View.set_slice_whole, Rect.mem_set_unit]
  exact Iff.rfl

/-- Row `p` is covered by the point whose block is `p / 256`. -/
theorem covered (i : S16384x128.Idx) : ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- The output array after the call: the product of the two arrays the call was entered with. -/
theorem final (c : Dev nD) : (dat0 V c).arrAt 2 cfg0.N = product (V c main_arg2) (V c main_v0) :=
  (dat0 V c).arrAt_eq_of_cover 2 _ (fun t _ => flushed_eq V c t) covered

end Cert.KernelIdeal.Region0

end
-- ==== Proof.Between.lean ====
/-
  What the second call finds in its ten input arrays: the host operations between the two calls, read
  off the first call's exit contents.

  From the node features `x`, the first call's product `y` and the two edge columns the host forms
  `1/√(1 + out-degree)` and `1/√(1 + in-degree)` per node, scales `x` and `y` by the first, joins them along the
  columns into one [16384, 256] array, gathers its rows at the edges' sources (a negative source wrapped by
  16384 first), scatter-adds them at the edges' destinations, adds the joined array itself (the self-loop),
  scales by the second weight, and cuts the result back into its two halves.  The six parameter vectors are
  laid out as [1, 128] rows.
-/
import proofs.«139378_j23613730193937_2_alg».proof.Proof.Gen.KernelIdeal.Frame
import proofs.«139378_j23613730193937_2_alg».proof.Proof.Region0
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators
open Idealize.ShloMosaic.StableHlo

/-- `1/√(1 + the number of edges whose endpoint in column e is the node)`, as a column [16384, 1]. -/
def invDeg (e : IVec S524288 32) : FVec Ideal S16384x1 .f32 :=
  broadcastInDim S16384x1 ![0] bcast_S16384_S16384x1_0
    (Host.rsqrt (addf (Host.scatterAdd scatter_S16384_S524288x1_S524288_n_0_0_1
        (broadcastInDim S16384 ![] bcast_S_S16384 (constant (F := Ideal) S_ .f32 0x00000000#32))
        (broadcastInDim S524288x1 ![0] bcast_S524288_S524288x1_0 e)
        (broadcastInDim S524288 ![] bcast_S_S524288 (constant (F := Ideal) S_ .f32 0x3F800000#32)))
      (broadcastInDim S16384 ![] bcast_S_S16384 (constant (F := Ideal) S_ .f32 0x3F800000#32))))

/-- The source column with negative entries wrapped by the node count, as a column [524288, 1]. -/
def wrapped (src : IVec S524288 32) : IVec S524288x1 32 :=
  broadcastInDim S524288x1 ![0] bcast_S524288_S524288x1_0
    (select (cmpi .slt src (broadcastInDim S524288 ![] bcast_S_S524288 (constantI S_ 32 0#32)))
      (addi src (broadcastInDim S524288 ![] bcast_S_S524288 (constantI S_ 32 16384#32))) src)

/-- A feature array with row `p` scaled by the column's entry `p`. -/
def scaledBy (x : FVec Ideal S16384x128 .f32) (d : FVec Ideal S16384x1 .f32) : FVec Ideal S16384x128 .f32 :=
  mulf x (broadcastInDim S16384x128 ![0, 1] bcast_S16384x1_S16384x128_0_1 d)

/-- The two scaled feature arrays side by side. -/
def sideBySide (x y : FVec Ideal S16384x128 .f32) (src : IVec S524288 32) : FVec Ideal S16384x256 .f32 :=
  concatenate S16384x256 1 [⟨S16384x128, scaledBy x (invDeg src)⟩, ⟨S16384x128, scaledBy y (invDeg src)⟩]
    concatenates_S16384x128_S16384x128_S16384x256_d1

/-- The joined aggregate: neighbours' rows summed onto each node, the node's own row added, the in-degree
    weight applied. -/
def joined (x y : FVec Ideal S16384x128 .f32) (src dst : IVec S524288 32) : FVec Ideal S16384x256 .f32 :=
  mulf (addf (Host.scatterAdd scatter_S16384x256_S524288x1_S524288x256_1_0_0_1
        (broadcastInDim S16384x256 ![] bcast_S_S16384x256 (constant (F := Ideal) S_ .f32 0x00000000#32))
        (broadcastInDim S524288x1 ![0] bcast_S524288_S524288x1_0 dst)
        (Host.gather gather_S16384x256_S524288x1_S524288x256_1_0_n_n_0_1_1256 (sideBySide x y src) (wrapped src)))
      (sideBySide x y src))
    (broadcastInDim S16384x256 ![0, 1] bcast_S16384x1_S16384x256_0_1 (invDeg dst))

variable (m : (ℓ : Loc nD τ sig) → Buf (Elt Ideal) ℓ) (ρ : Dev nD → PrngReg)

/-! ## The arguments are still as launched when the first call returns -/

theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results
theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results
theorem W2_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results

/-! ## The first call's two input arrays -/

theorem V1_arg2 (c : Dev nD) : V1 m ρ c main_arg2 = m ((c : Thread nD τ).loc main_arg2) := by
  show StableHlo.after hostOps0 (W0 m ρ c) (Proc.devRef .tc main_arg2) = _
  after_results

/-- The coarse features narrowed to the shorter format: the same extended reals. -/
theorem V1_v0 (c : Dev nD) : V1 m ρ c main_v0 = m ((c : Thread nD τ).loc main_arg1) := by
  show StableHlo.after hostOps0 (W0 m ρ c) (Proc.devRef .tc main_v0) = _
  after_results
  rfl

/-- The first call leaves the incidence product of the launched arrays in its output array. -/
theorem W2_v1 (c : Dev nD) : W2 m ρ c (Proc.devRef .tc main_v1)
    = Region0.product (m ((c : Thread nD τ).loc main_arg2)) (m ((c : Thread nD τ).loc main_arg1)) := by
  rw [show W2 m ρ c (Proc.devRef .tc main_v1) = (dat0 (V1 m ρ) c).arrAt 2 cfg0.N from W2_arr m ρ c 2,
    Region0.final (V1 m ρ) c, V1_arg2, V1_v0]

/-! ## The second call's input arrays -/

theorem V3_v35 (c : Dev nD) : V3 m ρ c main_v35
    = extractStridedSlice S16384x128 ![0, 0]
        (joined (m ((c : Thread nD τ).loc main_arg0)) (Region0.product (m ((c : Thread nD τ).loc main_arg2)) (m ((c : Thread nD τ).loc main_arg1)))
          (m ((c : Thread nD τ).loc main_arg11)) (m ((c : Thread nD τ).loc main_arg12))) slices_S16384x256_S16384x128_0_0 := by
  rw [← W2_v1 m ρ c, ← W2_arg0 m ρ c, ← W2_arg11 m ρ c, ← W2_arg12 m ρ c]
  show StableHlo.after hostOps1 (W2 m ρ c) (Proc.devRef .tc main_v35) = _
  after_results_simp
  rfl

theorem V3_v36 (c : Dev nD) : V3 m ρ c main_v36
    = extractStridedSlice S16384x128 ![0, 128]
        (joined (m ((c : Thread nD τ).loc main_arg0)) (Region0.product (m ((c : Thread nD τ).loc main_arg2)) (m ((c : Thread nD τ).loc main_arg1)))
          (m ((c : Thread nD τ).loc main_arg11)) (m ((c : Thread nD τ).loc main_arg12))) slices_S16384x256_S16384x128_0_128 := by
  rw [← W2_v1 m ρ c, ← W2_arg0 m ρ c, ← W2_arg11 m ρ c, ← W2_arg12 m ρ c]
  show StableHlo.after hostOps1 (W2 m ρ c) (Proc.devRef .tc main_v36) = _
  after_results_simp
  rfl

/-- The two weight matrices are the launched ones. -/
theorem V3_arg3 (c : Dev nD) : V3 m ρ c main_arg3 = m ((c : Thread nD τ).loc main_arg3) := by
  rw [← W2_arg3 m ρ c]
  show StableHlo.after hostOps1 (W2 m ρ c) (Proc.devRef .tc main_arg3) = _
  after_results_simp
theorem V3_arg5 (c : Dev nD) : V3 m ρ c main_arg5 = m ((c : Thread nD τ).loc main_arg5) := by
  rw [← W2_arg5 m ρ c]
  show StableHlo.after hostOps1 (W2 m ρ c) (Proc.devRef .tc main_arg5) = _
  after_results_simp

/-- The six parameter vectors, each laid out as a [1, 128] row. -/
theorem V3_v37 (c : Dev nD) : V3 m ρ c main_v37 = shapeCast S1x128 (m ((c : Thread nD τ).loc main_arg4)) shapeCasts_S128_S1x128 := by
  rw [← W2_arg4 m ρ c]
  show StableHlo.after hostOps1 (W2 m ρ c) (Proc.devRef .tc main_v37) = _
  after_results_simp
  rfl
theorem V3_v38 (c : Dev nD) : V3 m ρ c main_v38 = shapeCast S1x128 (m ((c : Thread nD τ).loc main_arg6)) shapeCasts_S128_S1x128 := by
  rw [← W2_arg6 m ρ c]
  show StableHlo.after hostOps1 (W2 m ρ c) (Proc.devRef .tc main_v38) = _
  after_results_simp
  rfl
theorem V3_v39 (c : Dev nD) : V3 m ρ c main_v39 = shapeCast S1x128 (m ((c : Thread nD τ).loc main_arg7)) shapeCasts_S128_S1x128 := by
  rw [← W2_arg7 m ρ c]
  show StableHlo.after hostOps1 (W2 m ρ c) (Proc.devRef .tc main_v39) = _
  after_results_simp
  rfl
theorem V3_v40 (c : Dev nD) : V3 m ρ c main_v40 = shapeCast S1x128 (m ((c : Thread nD τ).loc main_arg8)) shapeCasts_S128_S1x128 := by
  rw [← W2_arg8 m ρ c]
  show StableHlo.after hostOps1 (W2 m ρ c) (Proc.devRef .tc main_v40) = _
  after_results_simp
  rfl
theorem V3_v41 (c : Dev nD) : V3 m ρ c main_v41 = shapeCast S1x128 (m ((c : Thread nD τ).loc main_arg9)) shapeCasts_S128_S1x128 := by
  rw [← W2_arg9 m ρ c]
  show StableHlo.after hostOps1 (W2 m ρ c) (Proc.devRef .tc main_v41) = _
  after_results_simp
  rfl
theorem V3_v42 (c : Dev nD) : V3 m ρ c main_v42 = shapeCast S1x128 (m ((c : Thread nD τ).loc main_arg10)) shapeCasts_S128_S1x128 := by
  rw [← W2_arg10 m ρ c]
  show StableHlo.after hostOps1 (W2 m ρ c) (Proc.devRef .tc main_v42) = _
  after_results_simp
  rfl

end Cert.KernelIdeal.Between

end
-- ==== Proof.LibGatherRows178.lean ====
/-
  Row gathers and row scatters of the host, read at coordinates.

  `x[idx]` of a matrix `x : [N, C]` at a column of row numbers `idx : [R, 1]` is the matrix `[R, C]` whose row `r` is
  row `idx r` of `x`, the row number read as a signed integer and clamped into `[0, N − 1]`; the same for a flat
  array `x : [N]`, whose result is the array `[R]` of the named entries. A scatter of the rows of `u : [R, C]` into a
  matrix `[N, C]` at the row numbers `idx : [R, 1]` sends entry `(r, c)` of `u` to `(idx r, c)`: the row number is read
  signed and NOT clamped (an update whose row is outside the matrix is dropped), the column is kept.
-/
import Idealize.ShloMosaic.PureOps.Ideal
import Idealize.ShloMosaic.Lib.ValueIdx

noncomputable section

namespace Cert.LibRows

open Idealize.ShloMosaic Idealize.ShloMosaic.ValueIdx

variable {α : Type}

/-! ## Rows of a matrix -/

/-- The dimension numbers of a gather of whole rows: operand `[N, C]`, start indices `[R, 1]` (one row number each),
    result `[R, C]`; the slice is one row, its row axis collapsed, its column axis the result's. The conditions `wf`
    are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsDims N R C wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowsDims N R C wf).start j idx 0 + (rowsDims N R C wf).batchCoord j 0 + (rowsDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx j ⟨List.idxOf (0 : Fin 2) (rowsDims N R C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowsDims N R C wf).start j idx 1 + (rowsDims N R C wf).batchCoord j 1 + (rowsDims N R C wf).offCoord j 1 = _
    rw [GatherDims.batchCoord_eq_zero _ _ _ List.not_mem_nil]
    unfold GatherDims.start
    rw [dif_neg (show (1 : Fin 2) ∉ (rowsDims N R C wf).startIndexMap from
      (show (1 : Fin 2) ∉ ([0] : List (Fin 2)) from by decide))]
    simp only [Nat.add_zero, Nat.zero_add]
    unfold GatherDims.offCoord
    rw [dif_pos ((GatherDims.mem_sKept (rowsDims N R C wf) 1).mpr
      ⟨(show (1 : Fin 2) ∉ ([0] : List (Fin 2)) from by decide), List.not_mem_nil⟩)]
    rfl

/-! ## Entries of a flat array -/

/-- The dimension numbers of a gather of single entries: operand `[N]`, start indices `[R, 1]`, result `[R]`; the slice is
    one entry, its axis collapsed. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (entriesDims N R wf) x idx j = x (ix1 ⟨min (idx (ix2 (j 0) 0)).toInt.toNat (N - 1), by omega⟩) := by
  unfold Host.gather
  congr 1
  funext a
  obtain rfl : a = 0 := Subsingleton.elim _ _
  refine Fin.ext ?_
  show (entriesDims N R wf).start j idx 0 + (entriesDims N R wf).batchCoord j 0 + (entriesDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx j ⟨List.idxOf (0 : Fin 1) (entriesDims N R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Rows scattered into a matrix -/

/-- The dimension numbers of a scatter of whole rows: operand `[N, C]`, scatter indices `[R, 1]` (one row number each),
    updates `[R, C]`; an update row is a window along the operand's columns, placed at the row its index names. -/
abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window's start along the rows is the row number `idx[r, 0]`, read signed. -/
theorem rowsScatter_start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (ix2 (j 0) 0)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window's start along the columns is `0`: the scatter indices name rows only. -/
theorem rowsScatter_start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ (rowsScatter N R C wf).scatterDimsToOperandDims from
    (show (1 : Fin 2) ∉ ([0] : List (Fin 2)) from by decide))]

/-- The window coordinate along the rows is `0`: the row axis is inserted, not a window axis. -/
theorem rowsScatter_window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  rw [dif_neg (show (0 : Fin 2) ∉ (rowsScatter N R C wf).sKept from
    (show (0 : Fin 2) ∉ (List.finRange 2).filter (· ∉ ([0] : List (Fin 2))) from by decide))]

/-- The window coordinate along the columns is the update's column. -/
theorem rowsScatter_window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  rw [dif_pos (show (1 : Fin 2) ∈ (rowsScatter N R C wf).sKept from
    (show (1 : Fin 2) ∈ (List.finRange 2).filter (· ∉ ([0] : List (Fin 2))) from by decide))]
  rfl

/-- WHERE A SCATTERED ROW LANDS: if update entry `(r, c)` lands at operand index `i`, then `i`'s row is the row number
    `idx[r, 0]` read as a signed integer (not clamped: an update outside the operand lands nowhere) and `i`'s column is
    `c`. -/
theorem scatter_rows_result {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (ix2 (j 0) 0)).toInt = ((i 0).val : Int) ∧ (i 1).val = (j 1).val := by
  unfold ScatterDims.resultIdx? at h
  split at h
  · rename_i hin
    have hi := Option.some.inj h
    have h0 : ((rowsScatter N R C wf).start j idx 0 + ((rowsScatter N R C wf).window j 0 : Int)).toNat = (i 0).val :=
      congrArg (fun f : (⟨2, ![N, C]⟩ : Shape).Idx => (f 0).val) hi
    have h1 : ((rowsScatter N R C wf).start j idx 1 + ((rowsScatter N R C wf).window j 1 : Int)).toNat = (i 1).val :=
      congrArg (fun f : (⟨2, ![N, C]⟩ : Shape).Idx => (f 1).val) hi
    have hb := (hin 0).1
    rw [rowsScatter_start_row, rowsScatter_window_row] at h0 hb
    rw [rowsScatter_start_col, rowsScatter_window_col] at h1
    constructor <;> omega
  · exact absurd h (by simp)

end Cert.LibRows

end
-- ==== Proof.LibRowSum.lean ====
/-
  A scatter that adds rows onto a matrix, read at one entry as a sum over the rows that land there.

  Update row `e` of `u : [R, C]` lands on row `idx[e, 0]` (read signed, not clamped) of the operand `[N, C]`, its
  columns kept. So update entry `(e, c')` lands on operand entry `(p, c)` exactly when `idx[e, 0] = p` and `c' = c`,
  and the scattered sum at `(p, c)` is the operand's entry plus the sum, over the update rows `e` whose row number is
  `p`, of `u[e, c]`. The set of those rows does not depend on the column nor on the number of columns: two scatters of
  different widths at the same row numbers sum over the same rows.
-/
import proofs.«139378_j23613730193937_2_alg».proof.Proof.LibGatherRows178
import Idealize.ShloMosaic.PureOps.Ideal.Laws

noncomputable section

namespace Cert.LibRowSum

open Idealize.ShloMosaic Idealize.ShloMosaic.ValueIdx Cert.LibRows
open scoped BigOperators

/-- The update rows whose row number, read signed, is `p`. -/
def rowsAt {R w : ℕ} (idx : IVec ⟨2, ![R, 1]⟩ w) (p : ℕ) : Finset (Fin R) :=
  Finset.univ.filter fun e : Fin R => (idx (ix2 e 0)).toInt = (p : Int)

/-- WHERE A SCATTERED ROW LANDS, both ways: update entry `j` lands at operand index `i` exactly when `j`'s row number,
    read signed, is `i`'s row and the columns agree. -/
theorem rowsScatter_lands_iff {N R C w : ℕ} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowsScatter N R C wf).resultIdx? j idx = some i
      ↔ (idx (ix2 (j 0) 0)).toInt = ((i 0).val : Int) ∧ (j 1).val = (i 1).val := by
  constructor
  · intro h
    have := scatter_rows_result wf idx j i h
    exact ⟨this.1, this.2.symm⟩
  · rintro ⟨h0, h1⟩
    have hi0 := (i 0).isLt
    have hi1 := (i 1).isLt
    have hs0 := rowsScatter_start_row wf idx j
    have hw0 := rowsScatter_window_row wf j
    have hs1 := rowsScatter_start_col wf idx j
    have hw1 := rowsScatter_window_col wf j
    have hin : ∀ a, 0 ≤ (rowsScatter N R C wf).start j idx a + ((rowsScatter N R C wf).window j a : Int)
        ∧ (rowsScatter N R C wf).start j idx a + ((rowsScatter N R C wf).window j a : Int)
            < ((⟨2, ![N, C]⟩ : Shape).size a : Int) := by
      refine Fin.forall_fin_two.mpr ⟨?_, ?_⟩
      · rw [hs0, hw0, h0]; constructor <;> omega
      · rw [hs1, hw1, h1]; constructor <;> omega
    unfold ScatterDims.resultIdx?
    rw [dif_pos hin]
    refine congrArg some (funext (Fin.forall_fin_two.mpr ⟨Fin.ext ?_, Fin.ext ?_⟩))
    · show ((rowsScatter N R C wf).start j idx 0 + ((rowsScatter N R C wf).window j 0 : Int)).toNat = (i 0).val
      rw [hs0, hw0, h0]; omega
    · show ((rowsScatter N R C wf).start j idx 1 + ((rowsScatter N R C wf).window j 1 : Int)).toNat = (i 1).val
      rw [hs1, hw1, h1]; omega

/-- THE ROW SCATTER-ADD READ AT `(p, c)`: the operand's entry plus the sum over the update rows whose row number is `p`
    of their entry in column `c`. -/
theorem scatterAdd_rows_apply {N R C w : ℕ} (wf : ScatterDims.WF ⟨2, ![N, C]⟩ ⟨2, ![R, 1]⟩ ⟨2, ![R, C]⟩ [1] [0] [0] 1)
    (z : (⟨2, ![N, C]⟩ : Shape).Idx → EReal) (idx : IVec ⟨2, ![R, 1]⟩ w) (upd : (⟨2, ![R, C]⟩ : Shape).Idx → EReal)
    (p : Fin N) (c : Fin C) :
    Host.scatterAdd (F := Ideal) (φ := .f32) (rowsScatter N R C wf) z idx upd (ix2 p c)
      = z (ix2 p c) + ∑ e ∈ rowsAt idx p.val, upd (ix2 e c) := by
  show z (ix2 p c) + ∑ j ∈ Finset.univ.filter (fun j => (rowsScatter N R C wf).resultIdx? j idx = some (ix2 p c)), upd j = _
  congr 1
  rw [Finset.filter_congr (fun j _ => rowsScatter_lands_iff wf idx j (ix2 p c)), Finset.sum_filter, sum_idx2]
  unfold rowsAt
  rw [Finset.sum_filter]
  refine Finset.sum_congr rfl fun e _ => ?_
  by_cases he : (idx (ix2 e 0)).toInt = (p.val : Int)
  · rw [if_pos he]
    rw [Finset.sum_eq_single c]
    · rw [if_pos ⟨he, rfl⟩]
    · intro b _ hb
      rw [if_neg]
      rintro ⟨_, h⟩
      exact hb (Fin.ext h)
    · intro h; exact absurd (Finset.mem_univ c) h
  · rw [if_neg he]
    refine Finset.sum_eq_zero fun b _ => ?_
    rw [if_neg]
    rintro ⟨h, _⟩
    exact he h

end Cert.LibRowSum

end
-- ==== Proof.LibVecJoin.lean ====
/-
  Two vectors laid end to end, and a vector stood up as a column, read at an index; the edge list with its loops.

  A vector of `a` entries followed by one of `b` entries is a vector of `n = a + b` entries whose entry `k` is the
  first part's entry `k` for `k < a` and the second part's entry `k - a` otherwise. A vector of `R` entries stood up
  as a column `[R, 1]` reads, at `(r, 0)`, the vector's entry `r`. An edge list of `E` node numbers followed by the
  positions `0, 1, …, N-1` (one loop per node) is therefore a column whose first `E` entries are the edge list's and
  whose entry `E + j`, read as a signed 32-bit integer, is `j` — for fewer than `2^31` nodes. Lengths are free and
  positions are given by their values, so that the statements apply to arrays of literal extents.
-/
import Idealize.ShloMosaic.Lib.Pipeline.Value
import Idealize.ShloMosaic.Lib.ValueIdx

noncomputable section

namespace Cert.LibVecJoin

open Idealize.ShloMosaic Idealize.ShloMosaic.ValueIdx

variable {α : Type}

/-- Two vectors end to end: an entry of the first part. -/
theorem cat_vec_left {a b n : ℕ} (x : (⟨1, ![a]⟩ : Shape).Idx → α) (y : (⟨1, ![b]⟩ : Shape).Idx → α)
    (h : Shape.Concatenates [⟨1, ![a]⟩, ⟨1, ![b]⟩] ⟨1, ![n]⟩ 0) (k : Fin a) (k' : Fin n) (hk : k'.val = k.val) :
    concatenate ⟨1, ![n]⟩ 0 [⟨⟨1, ![a]⟩, x⟩, ⟨⟨1, ![b]⟩, y⟩] h (ix1 k') = x (ix1 k) := by
  refine concatenate_pair_apply_left (0 : Fin 1) x y h (ix1 k') rfl (ix1 k) fun b' => ?_
  match b' with
  | ⟨0, _⟩ => exact hk.symm

/-- Two vectors end to end: an entry of the second part. -/
theorem cat_vec_right {a b n : ℕ} (x : (⟨1, ![a]⟩ : Shape).Idx → α) (y : (⟨1, ![b]⟩ : Shape).Idx → α)
    (h : Shape.Concatenates [⟨1, ![a]⟩, ⟨1, ![b]⟩] ⟨1, ![n]⟩ 0) (k : Fin b) (k' : Fin n) (hk : k'.val = a + k.val) :
    concatenate ⟨1, ![n]⟩ 0 [⟨⟨1, ![a]⟩, x⟩, ⟨⟨1, ![b]⟩, y⟩] h (ix1 k') = y (ix1 k) := by
  refine concatenate_pair_apply_right (0 : Fin 1) x y h (ix1 k') rfl rfl (ix1 k) (fun b' hb => ?_) ?_
  · match b' with
    | ⟨0, _⟩ => exact absurd rfl hb
  · show k.val + a = k'.val
    omega

/-- A vector stood up as a column reads, at `(r, 0)`, its entry `r`. -/
theorem column_apply {R : ℕ} (h : (⟨1, ![R]⟩ : Shape).BroadcastsInDim ⟨2, ![R, 1]⟩ ![0])
    (v : (⟨1, ![R]⟩ : Shape).Idx → α) (r : Fin R) :
    broadcastInDim ⟨2, ![R, 1]⟩ ![0] h v (ix2 r 0) = v (ix1 r) := by
  unfold broadcastInDim
  refine congrArg v (funext fun a => ?_)
  match a with
  | ⟨0, _⟩ =>
    refine Fin.ext ?_
    split
    · rename_i h1
      have hR : R = 1 := h1
      have := r.isLt
      show 0 = r.val
      omega
    · rfl

/-- A position below `2^31`, written as a 32-bit word and read signed, is itself. -/
theorem toInt_ofNat_small (j : ℕ) (hj : j < 2 ^ 31) : (BitVec.ofNat 32 j).toInt = (j : Int) := by
  rw [BitVec.toInt_eq_toNat_cond, BitVec.toNat_ofNat]
  have hm : j % 2 ^ 32 = j := Nat.mod_eq_of_lt (by omega)
  rw [hm, if_pos (by omega)]

/-- THE EDGE COLUMN WITH ITS LOOPS, first part: an entry of the column at a position `r` below `E` is the edge list's
    entry at that position. The joined length `R` is free; the position is given by its value. -/
theorem loops_column_edge {E N R : ℕ} (col : IVec ⟨1, ![E]⟩ 32)
    (hc : Shape.Concatenates [⟨1, ![E]⟩, ⟨1, ![N]⟩] ⟨1, ![R]⟩ 0)
    (hb : (⟨1, ![R]⟩ : Shape).BroadcastsInDim ⟨2, ![R, 1]⟩ ![0]) (e : Fin E) (r : Fin R) (hr : r.val = e.val) :
    broadcastInDim ⟨2, ![R, 1]⟩ ![0] hb
        (concatenate ⟨1, ![R]⟩ 0 [⟨⟨1, ![E]⟩, col⟩, ⟨⟨1, ![N]⟩, iotaInDim ⟨1, ![N]⟩ 32 0⟩] hc)
        (ix2 r 0)
      = col (ix1 e) := by
  rw [column_apply, cat_vec_left col _ hc e r hr]

/-- THE EDGE COLUMN WITH ITS LOOPS, second part: the entry of the column at position `E + j`, read signed, is `j`. -/
theorem loops_column_loop {E N R : ℕ} (hN : N ≤ 2 ^ 31) (col : IVec ⟨1, ![E]⟩ 32)
    (hc : Shape.Concatenates [⟨1, ![E]⟩, ⟨1, ![N]⟩] ⟨1, ![R]⟩ 0)
    (hb : (⟨1, ![R]⟩ : Shape).BroadcastsInDim ⟨2, ![R, 1]⟩ ![0]) (j : Fin N) (r : Fin R) (hr : r.val = E + j.val) :
    (broadcastInDim ⟨2, ![R, 1]⟩ ![0] hb
        (concatenate ⟨1, ![R]⟩ 0 [⟨⟨1, ![E]⟩, col⟩, ⟨⟨1, ![N]⟩, iotaInDim ⟨1, ![N]⟩ 32 0⟩] hc)
        (ix2 r 0)).toInt
      = (j.val : Int) := by
  rw [column_apply, cat_vec_right col _ hc j r hr]
  show (BitVec.ofNat 32 j.val).toInt = _
  exact toInt_ofNat_small j.val (lt_of_lt_of_le j.isLt hN)

end Cert.LibVecJoin

end
-- ==== Proof.LibWrapGather.lean ====
/-
  An array indexed by a column of signed row numbers the way `x[idx]` is: negative numbers wrapped, then clamped.

  `x[idx]` first makes a row number non-negative — a negative one has the number of rows `N` added — and then gathers
  the row at that number read signed and clamped into `[0, N - 1]`. So entry `r` of the result is `x` at the row
  `pickRow N (idx r)`, a function of the one word `idx r`: two programs that index the same array by the same words
  read the same rows, whatever the words are. A position `j < N` written as a word is not negative and inside the
  array, so it picks row `j` itself (for `N` up to `2^31`): the row a self-loop reads.
  Lengths are free, and a gather is taken by its dimension numbers as hypotheses, so that the statements apply to
  arrays and records of literal extents.
-/
import proofs.«139378_j23613730193937_2_alg».proof.Proof.LibGatherRows178
import proofs.«139378_j23613730193937_2_alg».proof.Proof.LibVecJoin
import Idealize.ShloMosaic.Lib.IdealHost

noncomputable section

namespace Cert.LibWrapGather

open Idealize.ShloMosaic Idealize.ShloMosaic.ValueIdx Cert.LibRows Cert.LibVecJoin

variable {α : Type}

/-- A row number made non-negative: a negative number has the number of rows added. -/
def wrapWord (N : ℕ) (v : BitVec 32) : BitVec 32 :=
  Scalar.select (IntOp.cmpi .slt v 0#32) (IntOp.addi v (BitVec.ofNat 32 N)) v

/-- The row of `N` a signed row number selects: made non-negative, read signed, clamped into `[0, N - 1]`. -/
def pickRow (N : ℕ) (hN : 0 < N) (v : BitVec 32) : Fin N :=
  ⟨min (wrapWord N v).toInt.toNat (N - 1), by omega⟩

/-- An integer constant repeated over an array reads, at any index, the constant. -/
theorem splatI_apply {T : Shape} (h : (⟨0, ![]⟩ : Shape).BroadcastsInDim T ![]) (b : BitVec 32) (j : T.Idx) :
    broadcastInDim T ![] h (constantI ⟨0, ![]⟩ 32 b) j = b :=
  broadcastInDim_scalar_apply h _ j

/-- The wrap of an array of row numbers, read at an index: `select (x < 0) (x + N) x` is `wrapWord N` of the entry. -/
theorem wrap_apply {s : Shape} (N : ℕ) (X z n : IVec s 32) (i : s.Idx) (hz : z i = 0#32)
    (hn : n i = BitVec.ofNat 32 N) :
    select (cmpi .slt X z) (addi X n) X i = wrapWord N (X i) := by
  show Scalar.select (IntOp.cmpi .slt (X i) (z i)) (IntOp.addi (X i) (n i)) (X i) = _
  rw [hz, hn]
  rfl

/-- The entry gather read at `r`, for any record with the dimension numbers of a gather of single entries. -/
theorem gather_entries_apply_of {N R w : ℕ} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (r : Fin R) :
    Host.gather d x idx (ix1 r) = x (ix1 ⟨min (idx (ix2 r 0)).toInt.toNat (N - 1), by omega⟩) := by
  obtain ⟨a1, a2, a3, a4, a5, a6, a7, wf⟩ := d
  dsimp only at h1 h2 h3 h4 h5 h6 h7
  subst h1 h2 h3 h4 h5 h6 h7
  exact gather_entries_apply hN wf x idx (ix1 r)

/-- The row gather read at `(r, c)`, for any record with the dimension numbers of a gather of whole rows. -/
theorem gather_rows_apply_of {N R C w : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c) = x (ix2 ⟨min (idx (ix2 r 0)).toInt.toNat (N - 1), by omega⟩ c) := by
  obtain ⟨a1, a2, a3, a4, a5, a6, a7, wf⟩ := d
  dsimp only at h1 h2 h3 h4 h5 h6 h7
  subst h1 h2 h3 h4 h5 h6 h7
  exact gather_rows_apply hN wf x idx (ix2 r c)

/-- ENTRIES PICKED BY A COLUMN OF WRAPPED ROW NUMBERS: entry `r` is the array at `pickRow N` of the word `X r`. -/
theorem gather_entries_wrap_apply {N R : ℕ} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (X z n : IVec ⟨1, ![R]⟩ 32)
    (hb : (⟨1, ![R]⟩ : Shape).BroadcastsInDim ⟨2, ![R, 1]⟩ ![0]) (r : Fin R)
    (hz : z (ix1 r) = 0#32) (hn : n (ix1 r) = BitVec.ofNat 32 N) :
    Host.gather d x (broadcastInDim ⟨2, ![R, 1]⟩ ![0] hb (select (cmpi .slt X z) (addi X n) X)) (ix1 r)
      = x (ix1 (pickRow N hN (X (ix1 r)))) :=
  (gather_entries_apply_of hN d h1 h2 h3 h4 h5 h6 h7 x _ r).trans
    (congrArg (fun v : BitVec 32 => x (ix1 ⟨min v.toInt.toNat (N - 1), by omega⟩))
      ((column_apply hb _ r).trans (wrap_apply N X z n (ix1 r) hz hn)))

/-- ROWS PICKED BY A COLUMN OF WRAPPED ROW NUMBERS: entry `(r, c)` is the array at row `pickRow N` of the word `X r`,
    column `c`. -/
theorem gather_rows_wrap_apply {N R C : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (X z n : IVec ⟨1, ![R]⟩ 32)
    (hb : (⟨1, ![R]⟩ : Shape).BroadcastsInDim ⟨2, ![R, 1]⟩ ![0]) (r : Fin R) (c : Fin C)
    (hz : z (ix1 r) = 0#32) (hn : n (ix1 r) = BitVec.ofNat 32 N) :
    Host.gather d x (broadcastInDim ⟨2, ![R, 1]⟩ ![0] hb (select (cmpi .slt X z) (addi X n) X)) (ix2 r c)
      = x (ix2 (pickRow N hN (X (ix1 r))) c) :=
  (gather_rows_apply_of hN d h1 h2 h3 h4 h5 h6 h7 x _ r c).trans
    (congrArg (fun v : BitVec 32 => x (ix2 ⟨min v.toInt.toNat (N - 1), by omega⟩ c))
      ((column_apply hb _ r).trans (wrap_apply N X z n (ix1 r) hz hn)))

/-- A LOOP PICKS ITS OWN ROW: the position `j < N`, written as a word, is not negative and inside the array. -/
theorem pickRow_position {N : ℕ} (hN : 0 < N) (hN2 : N ≤ 2 ^ 31) (j : Fin N) :
    pickRow N hN (BitVec.ofNat 32 j.val) = j := by
  have hj := j.isLt
  have ht : (BitVec.ofNat 32 j.val).toInt = (j.val : Int) := toInt_ofNat_small j.val (by omega)
  have hs : IntOp.cmpi .slt (BitVec.ofNat 32 j.val) 0#32 = 0#1 := by
    show BitVec.ofBool ((BitVec.ofNat 32 j.val).slt 0#32) = 0#1
    have hf : (BitVec.ofNat 32 j.val).slt 0#32 = false := by
      simp [BitVec.slt, ht]
    rw [hf]
    rfl
  apply Fin.ext
  show min (wrapWord N (BitVec.ofNat 32 j.val)).toInt.toNat (N - 1) = j.val
  unfold wrapWord
  rw [hs, select_zero, ht]
  simp only [Int.toNat_natCast]
  omega

end Cert.LibWrapGather

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«139378_j23613730193937_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibAggCat.lean ====
/-
  Neighbour aggregation over two feature arrays joined along their columns, cut back to one of them.

  For feature arrays `A : [N, a]` and `B : [N, b]` joined as `[N, a+b]`, a column `src` of R source rows, a
  column `dst` of R landing rows and a column `v : [N, 1]` of per-row weights, the array

      ((0 + Σ_{edges e landing on p} (A‖B)(src e, ·)) + (A‖B)(p, ·)) · v p

  cut to its first `a` columns is the same aggregation of `A` alone, and cut to its last `b` columns that of
  `B` alone: a gather of whole rows, a scatter-add of whole rows and a row weight all act column by column,
  and which edges land on a row does not depend on the width.  No arithmetic law is used: the two sides are
  the same sum, entry by entry.  (The scatter records enter as variables with the fact that they are the literal
  rows-scatter record, so that a printed record is matched by name and compared with the literal one on its own.)
-/
import proofs.«139378_j23613730193937_2_alg».proof.Proof.LibRowSum
import proofs.«139378_j23613730193937_2_alg».proof.Proof.LibWrapGather
import proofs.«139378_j23613730193937_2_alg».proof.Proof.LibColsJoin
import proofs.«139378_j23613730193937_2_alg».proof.Proof.LibColsCut
import proofs.«139378_j23613730193937_2_alg».proof.Proof.LibGcnLayer
import proofs.«139378_j23613730193937_2_alg».proof.Proof.LibHostDense

noncomputable section

namespace Cert.LibAggCat

open Idealize.ShloMosaic Idealize.ShloMosaic.ValueIdx
open Cert.LibRows Cert.LibRowSum Cert.LibWrapGather Cert.LibColsJoin Cert.LibColsCut Cert.LibGcnLayer Cert.LibHostDense
open scoped BigOperators

variable {N R a b n : ℕ}

/-- The aggregation of one feature array of any width `c`, read at `(p, q)`. -/
theorem agg_apply {c : ℕ} (hN : 0 < N)
    (wfS : ScatterDims.WF ⟨2, ![N, c]⟩ ⟨2, ![R, 1]⟩ ⟨2, ![R, c]⟩ [1] [0] [0] 1)
    (dG : GatherDims ⟨2, ![N, c]⟩ ⟨2, ![R, 1]⟩ ⟨2, ![R, c]⟩)
    (h1 : dG.offsetDims = [1]) (h2 : dG.collapsedSliceDims = [0]) (h3 : dG.operandBatchingDims = [])
    (h4 : dG.startIndicesBatchingDims = []) (h5 : dG.startIndexMap = [0]) (h6 : dG.indexVectorDim = 1)
    (h7 : dG.sliceSizes = ![1, c])
    (X : FVec Ideal ⟨2, ![N, c]⟩ .f32) (src dst : IVec ⟨2, ![R, 1]⟩ 32) (v : FVec Ideal ⟨2, ![N, 1]⟩ .f32)
    (hz : (⟨0, ![]⟩ : Shape).BroadcastsInDim ⟨2, ![N, c]⟩ (![] : Fin 0 → Fin 2))
    (hv : (⟨2, ![N, 1]⟩ : Shape).BroadcastsInDim ⟨2, ![N, c]⟩ (![0, 1] : Fin 2 → Fin 2)) (w : BitVec 32)
    (p : Fin N) (q : Fin c) :
    mulf (addf (Host.scatterAdd (F := Ideal) (φ := .f32) (rowsScatter N R c wfS)
        (broadcastInDim ⟨2, ![N, c]⟩ ![] hz (constant (F := Ideal) ⟨0, ![]⟩ .f32 w)) dst (Host.gather dG X src)) X)
      (broadcastInDim ⟨2, ![N, c]⟩ ![0, 1] hv v) (ix2 p q)
    = ((Ideal.ofBits .f32 w + ∑ e ∈ rowsAt dst p.val,
          X (ix2 ⟨min (src (ix2 e 0)).toInt.toNat (N - 1), by omega⟩ q)) + X (ix2 p q)) * v (ix2 p (0 : Fin 1)) := by
  rw [mulf_apply, addf_apply, scatterAdd_rows_apply, bcastScalar_apply, bcastCols_apply, constant_apply]
  congr 3
  exact Finset.sum_congr rfl fun e _ => gather_rows_apply_of hN dG h1 h2 h3 h4 h5 h6 h7 X src e q

/-- The joined aggregation cut to its first `a` columns is the aggregation of the left array. -/
theorem agg_cat_left (hN : 0 < N) (hn : a + b = n)
    (wfS : ScatterDims.WF ⟨2, ![N, n]⟩ ⟨2, ![R, 1]⟩ ⟨2, ![R, n]⟩ [1] [0] [0] 1)
    (wfS' : ScatterDims.WF ⟨2, ![N, a]⟩ ⟨2, ![R, 1]⟩ ⟨2, ![R, a]⟩ [1] [0] [0] 1)
    (dS : ScatterDims ⟨2, ![N, n]⟩ ⟨2, ![R, 1]⟩ ⟨2, ![R, n]⟩) (hS : dS = rowsScatter N R n wfS)
    (dS' : ScatterDims ⟨2, ![N, a]⟩ ⟨2, ![R, 1]⟩ ⟨2, ![R, a]⟩) (hS' : dS' = rowsScatter N R a wfS')
    (dG : GatherDims ⟨2, ![N, n]⟩ ⟨2, ![R, 1]⟩ ⟨2, ![R, n]⟩)
    (h1 : dG.offsetDims = [1]) (h2 : dG.collapsedSliceDims = [0]) (h3 : dG.operandBatchingDims = [])
    (h4 : dG.startIndicesBatchingDims = []) (h5 : dG.startIndexMap = [0]) (h6 : dG.indexVectorDim = 1)
    (h7 : dG.sliceSizes = ![1, n])
    (dG' : GatherDims ⟨2, ![N, a]⟩ ⟨2, ![R, 1]⟩ ⟨2, ![R, a]⟩)
    (h1' : dG'.offsetDims = [1]) (h2' : dG'.collapsedSliceDims = [0]) (h3' : dG'.operandBatchingDims = [])
    (h4' : dG'.startIndicesBatchingDims = []) (h5' : dG'.startIndexMap = [0]) (h6' : dG'.indexVectorDim = 1)
    (h7' : dG'.sliceSizes = ![1, a])
    (A : FVec Ideal ⟨2, ![N, a]⟩ .f32) (B : FVec Ideal ⟨2, ![N, b]⟩ .f32)
    (hcat : Shape.Concatenates [⟨2, ![N, a]⟩, ⟨2, ![N, b]⟩] ⟨2, ![N, n]⟩ 1)
    (src dst : IVec ⟨2, ![R, 1]⟩ 32) (v : FVec Ideal ⟨2, ![N, 1]⟩ .f32)
    (hz : (⟨0, ![]⟩ : Shape).BroadcastsInDim ⟨2, ![N, n]⟩ (![] : Fin 0 → Fin 2))
    (hz' : (⟨0, ![]⟩ : Shape).BroadcastsInDim ⟨2, ![N, a]⟩ (![] : Fin 0 → Fin 2))
    (hv : (⟨2, ![N, 1]⟩ : Shape).BroadcastsInDim ⟨2, ![N, n]⟩ (![0, 1] : Fin 2 → Fin 2))
    (hv' : (⟨2, ![N, 1]⟩ : Shape).BroadcastsInDim ⟨2, ![N, a]⟩ (![0, 1] : Fin 2 → Fin 2)) (w : BitVec 32)
    (hs : (⟨2, ![N, n]⟩ : Shape).Slices ![0, 0] ⟨2, ![N, a]⟩) :
    extractStridedSlice (⟨2, ![N, a]⟩ : Shape) ![0, 0]
        (mulf (addf (Host.scatterAdd (F := Ideal) (φ := .f32) dS
            (broadcastInDim ⟨2, ![N, n]⟩ ![] hz (constant (F := Ideal) ⟨0, ![]⟩ .f32 w)) dst
            (Host.gather dG (concatenate ⟨2, ![N, n]⟩ 1 [⟨⟨2, ![N, a]⟩, A⟩, ⟨⟨2, ![N, b]⟩, B⟩] hcat) src))
          (concatenate ⟨2, ![N, n]⟩ 1 [⟨⟨2, ![N, a]⟩, A⟩, ⟨⟨2, ![N, b]⟩, B⟩] hcat))
          (broadcastInDim ⟨2, ![N, n]⟩ ![0, 1] hv v)) hs
      = mulf (addf (Host.scatterAdd (F := Ideal) (φ := .f32) dS'
            (broadcastInDim ⟨2, ![N, a]⟩ ![] hz' (constant (F := Ideal) ⟨0, ![]⟩ .f32 w)) dst (Host.gather dG' A src)) A)
          (broadcastInDim ⟨2, ![N, a]⟩ ![0, 1] hv' v) := by
  subst hS hS'
  funext i
  obtain ⟨p, q, rfl⟩ : ∃ (p : Fin N) (q : Fin a), i = ix2 p q := ⟨i 0, i 1, eq_ix2 i⟩
  have hq : q.val < n := by omega
  rw [slice_cols 0 _ hs p q ⟨q.val, hq⟩ (by simp),
    agg_apply hN wfS dG h1 h2 h3 h4 h5 h6 h7 _ src dst v hz hv w p ⟨q.val, hq⟩,
    agg_apply hN wfS' dG' h1' h2' h3' h4' h5' h6' h7' A src dst v hz' hv' w p q,
    cat_cols_left A B hcat p q ⟨q.val, hq⟩ rfl]
  congr 3
  exact Finset.sum_congr rfl fun e _ => cat_cols_left A B hcat _ q ⟨q.val, hq⟩ rfl

/-- The joined aggregation cut to its last `b` columns is the aggregation of the right array. -/
theorem agg_cat_right (hN : 0 < N) (hn : a + b = n)
    (wfS : ScatterDims.WF ⟨2, ![N, n]⟩ ⟨2, ![R, 1]⟩ ⟨2, ![R, n]⟩ [1] [0] [0] 1)
    (wfS' : ScatterDims.WF ⟨2, ![N, b]⟩ ⟨2, ![R, 1]⟩ ⟨2, ![R, b]⟩ [1] [0] [0] 1)
    (dS : ScatterDims ⟨2, ![N, n]⟩ ⟨2, ![R, 1]⟩ ⟨2, ![R, n]⟩) (hS : dS = rowsScatter N R n wfS)
    (dS' : ScatterDims ⟨2, ![N, b]⟩ ⟨2, ![R, 1]⟩ ⟨2, ![R, b]⟩) (hS' : dS' = rowsScatter N R b wfS')
    (dG : GatherDims ⟨2, ![N, n]⟩ ⟨2, ![R, 1]⟩ ⟨2, ![R, n]⟩)
    (h1 : dG.offsetDims = [1]) (h2 : dG.collapsedSliceDims = [0]) (h3 : dG.operandBatchingDims = [])
    (h4 : dG.startIndicesBatchingDims = []) (h5 : dG.startIndexMap = [0]) (h6 : dG.indexVectorDim = 1)
    (h7 : dG.sliceSizes = ![1, n])
    (dG' : GatherDims ⟨2, ![N, b]⟩ ⟨2, ![R, 1]⟩ ⟨2, ![R, b]⟩)
    (h1' : dG'.offsetDims = [1]) (h2' : dG'.collapsedSliceDims = [0]) (h3' : dG'.operandBatchingDims = [])
    (h4' : dG'.startIndicesBatchingDims = []) (h5' : dG'.startIndexMap = [0]) (h6' : dG'.indexVectorDim = 1)
    (h7' : dG'.sliceSizes = ![1, b])
    (A : FVec Ideal ⟨2, ![N, a]⟩ .f32) (B : FVec Ideal ⟨2, ![N, b]⟩ .f32)
    (hcat : Shape.Concatenates [⟨2, ![N, a]⟩, ⟨2, ![N, b]⟩] ⟨2, ![N, n]⟩ 1)
    (src dst : IVec ⟨2, ![R, 1]⟩ 32) (v : FVec Ideal ⟨2, ![N, 1]⟩ .f32)
    (hz : (⟨0, ![]⟩ : Shape).BroadcastsInDim ⟨2, ![N, n]⟩ (![] : Fin 0 → Fin 2))
    (hz' : (⟨0, ![]⟩ : Shape).BroadcastsInDim ⟨2, ![N, b]⟩ (![] : Fin 0 → Fin 2))
    (hv : (⟨2, ![N, 1]⟩ : Shape).BroadcastsInDim ⟨2, ![N, n]⟩ (![0, 1] : Fin 2 → Fin 2))
    (hv' : (⟨2, ![N, 1]⟩ : Shape).BroadcastsInDim ⟨2, ![N, b]⟩ (![0, 1] : Fin 2 → Fin 2)) (w : BitVec 32)
    (hs : (⟨2, ![N, n]⟩ : Shape).Slices ![0, a] ⟨2, ![N, b]⟩) :
    extractStridedSlice (⟨2, ![N, b]⟩ : Shape) ![0, a]
        (mulf (addf (Host.scatterAdd (F := Ideal) (φ := .f32) dS
            (broadcastInDim ⟨2, ![N, n]⟩ ![] hz (constant (F := Ideal) ⟨0, ![]⟩ .f32 w)) dst
            (Host.gather dG (concatenate ⟨2, ![N, n]⟩ 1 [⟨⟨2, ![N, a]⟩, A⟩, ⟨⟨2, ![N, b]⟩, B⟩] hcat) src))
          (concatenate ⟨2, ![N, n]⟩ 1 [⟨⟨2, ![N, a]⟩, A⟩, ⟨⟨2, ![N, b]⟩, B⟩] hcat))
          (broadcastInDim ⟨2, ![N, n]⟩ ![0, 1] hv v)) hs
      = mulf (addf (Host.scatterAdd (F := Ideal) (φ := .f32) dS'
            (broadcastInDim ⟨2, ![N, b]⟩ ![] hz' (constant (F := Ideal) ⟨0, ![]⟩ .f32 w)) dst (Host.gather dG' B src)) B)
          (broadcastInDim ⟨2, ![N, b]⟩ ![0, 1] hv' v) := by
  subst hS hS'
  funext i
  obtain ⟨p, q, rfl⟩ : ∃ (p : Fin N) (q : Fin b), i = ix2 p q := ⟨i 0, i 1, eq_ix2 i⟩
  have hq : a + q.val < n := by omega
  rw [slice_cols a _ hs p q ⟨a + q.val, hq⟩ rfl,
    agg_apply hN wfS dG h1 h2 h3 h4 h5 h6 h7 _ src dst v hz hv w p ⟨a + q.val, hq⟩,
    agg_apply hN wfS' dG' h1' h2' h3' h4' h5' h6' h7' B src dst v hz' hv' w p q,
    cat_cols_right A B hcat p q ⟨a + q.val, hq⟩ rfl]
  congr 3
  exact Finset.sum_congr rfl fun e _ => cat_cols_right A B hcat _ q ⟨a + q.val, hq⟩ rfl

end Cert.LibAggCat

end
-- ==== Proof.Bridge.lean ====
/-
  The two programs' neighbour aggregations are one function.

  The reference aggregates each feature array on its own: scale row `n` by `1/√(1 + out-degree n)`, sum
  the scaled rows of the edges' sources onto the edges' destinations, add the scaled array itself, scale row
  `p` by `1/√(1 + in-degree p)` (`aggOf`).  The kernel's host code aggregates the two arrays joined along
  their columns and cuts the result in two; column by column that is the same sum (LibAggCat), so each
  half is `aggOf` of its own array.  The reference applies `aggOf` to the node features and to its own
  incidence product, which is the first call's product entry by entry.
-/
import proofs.«139378_j23613730193937_2_alg».proof.Proof.Between
import proofs.«139378_j23613730193937_2_alg».proof.Proof.LibAggCat
import proofs.«139378_j23613730193937_2_alg».proof.Proof.Gen.ReferenceIdeal.Read

set_option maxRecDepth 16384

noncomputable section

namespace Cert.Bridge

open Idealize.ShloMosaic Idealize.ShloMosaic.ValueIdx Idealize.ShloMosaic.TcCoe
open Cert.KernelIdeal Cert.KernelIdeal.Gen Cert.KernelIdeal.Between
open scoped BigOperators

/-- One feature array aggregated over the graph with a self-loop at every node, both degree weights applied. -/
def aggOf (x : FVec Ideal S16384x128 .f32) (src dst : IVec S524288 32) : FVec Ideal S16384x128 .f32 :=
  mulf (addf (Host.scatterAdd Cert.ReferenceIdeal.scatter_S16384x128_S524288x1_S524288x128_1_0_0_1
        (broadcastInDim S16384x128 ![] Cert.ReferenceIdeal.Gen.bcast_S_S16384x128 (constant (F := Ideal) S_ .f32 0x00000000#32))
        (broadcastInDim S524288x1 ![0] bcast_S524288_S524288x1_0 dst)
        (Host.gather Cert.ReferenceIdeal.gather_S16384x128_S524288x1_S524288x128_1_0_n_n_0_1_1128 (scaledBy x (invDeg src)) (wrapped src)))
      (scaledBy x (invDeg src)))
    (broadcastInDim S16384x128 ![0, 1] bcast_S16384x1_S16384x128_0_1 (invDeg dst))

/-- The joined aggregate cut to its first 128 columns is the aggregate of the first array. -/
theorem cut_left (x y : FVec Ideal S16384x128 .f32) (src dst : IVec S524288 32) :
    extractStridedSlice S16384x128 ![0, 0] (joined x y src dst) slices_S16384x256_S16384x128_0_0 = aggOf x src dst := by
  unfold joined aggOf sideBySide
  have key := Cert.LibAggCat.agg_cat_left (N := 16384) (R := 524288) (a := 128) (b := 128) (n := 256) (by decide) rfl
    scatter_S16384x256_S524288x1_S524288x256_1_0_0_1_wf Cert.ReferenceIdeal.Gen.scatter_S16384x128_S524288x1_S524288x128_1_0_0_1_wf
    scatter_S16384x256_S524288x1_S524288x256_1_0_0_1 rfl Cert.ReferenceIdeal.scatter_S16384x128_S524288x1_S524288x128_1_0_0_1 rfl
    gather_S16384x256_S524288x1_S524288x256_1_0_n_n_0_1_1256 rfl rfl rfl rfl rfl rfl rfl
    Cert.ReferenceIdeal.gather_S16384x128_S524288x1_S524288x128_1_0_n_n_0_1_1128 rfl rfl rfl rfl rfl rfl rfl
    (scaledBy x (invDeg src)) (scaledBy y (invDeg src)) concatenates_S16384x128_S16384x128_S16384x256_d1
    (wrapped src) (broadcastInDim S524288x1 ![0] bcast_S524288_S524288x1_0 dst) (invDeg dst)
    bcast_S_S16384x256 Cert.ReferenceIdeal.Gen.bcast_S_S16384x128 bcast_S16384x1_S16384x256_0_1 bcast_S16384x1_S16384x128_0_1
    0x00000000#32 slices_S16384x256_S16384x128_0_0
  exact key

/-- The joined aggregate cut to its last 128 columns is the aggregate of the second array. -/
theorem cut_right (x y : FVec Ideal S16384x128 .f32) (src dst : IVec S524288 32) :
    extractStridedSlice S16384x128 ![0, 128] (joined x y src dst) slices_S16384x256_S16384x128_0_128 = aggOf y src dst := by
  unfold joined aggOf sideBySide
  have key := Cert.LibAggCat.agg_cat_right (N := 16384) (R := 524288) (a := 128) (b := 128) (n := 256) (by decide) rfl
    scatter_S16384x256_S524288x1_S524288x256_1_0_0_1_wf Cert.ReferenceIdeal.Gen.scatter_S16384x128_S524288x1_S524288x128_1_0_0_1_wf
    scatter_S16384x256_S524288x1_S524288x256_1_0_0_1 rfl Cert.ReferenceIdeal.scatter_S16384x128_S524288x1_S524288x128_1_0_0_1 rfl
    gather_S16384x256_S524288x1_S524288x256_1_0_n_n_0_1_1256 rfl rfl rfl rfl rfl rfl rfl
    Cert.ReferenceIdeal.gather_S16384x128_S524288x1_S524288x128_1_0_n_n_0_1_1128 rfl rfl rfl rfl rfl rfl rfl
    (scaledBy x (invDeg src)) (scaledBy y (invDeg src)) concatenates_S16384x128_S16384x128_S16384x256_d1
    (wrapped src) (broadcastInDim S524288x1 ![0] bcast_S524288_S524288x1_0 dst) (invDeg dst)
    bcast_S_S16384x256 Cert.ReferenceIdeal.Gen.bcast_S_S16384x128 bcast_S16384x1_S16384x256_0_1 bcast_S16384x1_S16384x128_0_1
    0x00000000#32 slices_S16384x256_S16384x128_0_128
  exact key

/-- The reference's aggregate of the node features is `aggOf` of them. -/
theorem ref_agg_nodes (x0 : FVec Ideal S16384x128 .f32) (x11 x12 : IVec S524288 32) :
    Cert.ReferenceIdeal.Read.val_main_v29 (F := Ideal) x0 x11 x12 = aggOf x0 x11 x12 := rfl

/-- The reference's aggregate of its incidence product is `aggOf` of that product. -/
theorem ref_agg_product (x1 : FVec Ideal S8192x128 .f32) (x2 : FVec Ideal S16384x8192 .f32) (x11 x12 : IVec S524288 32) :
    Cert.ReferenceIdeal.Read.val_main_v67 (F := Ideal) x1 x2 x11 x12
      = aggOf (Cert.ReferenceIdeal.Read.val_main_v37 (F := Ideal) x1 x2) x11 x12 := rfl

/-- The reference's incidence product is the first call's, entry by entry. -/
theorem ref_product (x1 : FVec Ideal S8192x128 .f32) (x2 : FVec Ideal S16384x8192 .f32) :
    Cert.ReferenceIdeal.Read.val_main_v37 (F := Ideal) x1 x2 = Region0.product x2 x1 := by
  funext i
  obtain ⟨p, q, rfl⟩ : ∃ (p : Fin 16384) (q : Fin 128), i = ix2 p q := ⟨i 0, i 1, eq_ix2 i⟩
  rw [Cert.ReferenceIdeal.Read.val_main_v37_apply, Region0.product_apply]
  refine Finset.sum_congr rfl fun k _ => ?_
  have hl : Cert.ReferenceIdeal.Read.lidx_main_v37 (ix2 p q) k = ix2 p k := funext fun a => Fin.ext (by match a with | ⟨0, _⟩ => rfl | ⟨1, _⟩ => rfl)
  have hr : Cert.ReferenceIdeal.Read.ridx_main_v37 (ix2 p q) k = ix2 k q := funext fun a => Fin.ext (by match a with | ⟨0, _⟩ => rfl | ⟨1, _⟩ => rfl)
  rw [hl, hr]

end Cert.Bridge

end
-- ==== Proof.RefFused.lean ====
/-
  The reference, read as the same row function.

  After its two neighbour aggregations (left unopened here: `val_main_v29` for the node features,
  `val_main_v67` for the incidence product) the reference projects each aggregate by a matrix product
  with a bias row and a scale row, halves their sum, and normalises every row: mean and variance by a
  sum over the row divided by 128, the centred row times the inverse root of the floored variance, a
  scale and a shift, and a maximum with zero.  Entry `(p, q)` of its result is `FuseSpec.normRow` of
  `FuseSpec.mixRow` of rows `p` of the two aggregates: `FuseSpec.fused`.
-/
import proofs.«139378_j23613730193937_2_alg».proof.Proof.Gen.ReferenceIdeal.Read
import proofs.«139378_j23613730193937_2_alg».proof.Proof.FuseSpec
import proofs.«139378_j23613730193937_2_alg».proof.Proof.LibHostDense
import proofs.«139378_j23613730193937_2_alg».proof.Proof.LibGcnLayer
import Idealize.ShloMosaic.PureOps.Ideal.Laws

set_option maxRecDepth 65536

noncomputable section

namespace Cert.ReferenceIdeal.Fused

open Cert.ReferenceIdeal Cert.ReferenceIdeal.Gen Cert.ReferenceIdeal.Read Cert.FuseSpec
open Idealize.ShloMosaic Idealize.ShloMosaic.ValueIdx Idealize.ShloMosaic.TcCoe
open Cert.LibHostDense Cert.LibGcnLayer
open scoped BigOperators

/-- A length-n vector as a function of its one coordinate. -/
abbrev vecOf {n : ℕ} (b : (⟨1, ![n]⟩ : Shape).Idx → EReal) : Fin n → EReal := fun q => b (ix1 q)

theorem hostDivf_at {s : Shape} {φ : FTy} (a b : FVec Ideal s φ) (i : s.Idx) : Host.divf a b i = Ideal.div (a i) (b i) := rfl
theorem hostRsqrt_at {s : Shape} {φ : FTy} (a : FVec Ideal s φ) (i : s.Idx) : Host.rsqrt a i = Ideal.rsqrt (a i) := rfl

/-- The host's sum over the 128 columns of row `p`: the starting value plus the row's entries. -/
theorem rowSumR (y : FVec Ideal S16384x128 .f32) (z : (⟨S_, .f32⟩ : BufTy).Contents (Elt Ideal)) (p : Fin 16384) :
    Host.reduceAdd y z reducesTo_S16384x128_S16384_d1 h_S_ (ix1 p) = z ix0 + ∑ k : Fin 128, y (ix2 p k) := by
  simp only [Host.reduceAdd, Ideal.hostReduceAdd_def]
  rw [Ideal.hostReduceAdd_single reducesTo_S16384x128_S16384_d1 (by decide)]
  refine congrArg₂ (· + ·) (congrArg z (eq_ix0 _)) (Finset.sum_congr rfl fun k _ => ?_)
  exact congrArg y (funext fun a => Fin.ext (by match a with | ⟨0, _⟩ => rfl | ⟨1, _⟩ => rfl))

section

variable (x0 : (⟨S16384x128, .f32⟩ : BufTy).Contents (Elt Ideal)) (x1 : (⟨S8192x128, .f32⟩ : BufTy).Contents (Elt Ideal))
  (x2 : (⟨S16384x8192, .f32⟩ : BufTy).Contents (Elt Ideal)) (x3 x5 : (⟨S128x128, .f32⟩ : BufTy).Contents (Elt Ideal))
  (x4 x6 x7 x8 x9 x10 : (⟨S128, .f32⟩ : BufTy).Contents (Elt Ideal)) (x11 x12 : (⟨S524288, .i32⟩ : BufTy).Contents (Elt Ideal))

/-- Row `p` of the halved sum of the two scaled projections. -/
theorem mix_apply (p : Fin 16384) (q : Fin 128) :
    val_main_v77 (F := Ideal) x0 x1 x2 x3 x4 x5 x6 x7 x8 x11 x12 (ix2 p q)
      = mixRow (fun k => val_main_v29 (F := Ideal) x0 x11 x12 (ix2 p k)) (fun k => val_main_v67 (F := Ideal) x1 x2 x11 x12 (ix2 p k))
          x3 x5 (vecOf x4) (vecOf x6) (vecOf x7) (vecOf x8) q := by
  rw [val_main_v77_apply, val_main_v75_apply, val_main_v36_apply, val_main_v33_apply, val_main_v30_apply, val_main_v74_apply,
    val_main_v71_apply, val_main_v68_apply, val_main_v32_apply, val_main_v31_apply, val_main_v35_apply, val_main_v34_apply,
    val_main_v70_apply, val_main_v69_apply, val_main_v73_apply, val_main_v72_apply, val_main_v76_apply, val_main_cst_14_apply]
  have hl : ∀ k : Fin 128, lidx_main_v30 (ix2 p q) k = ix2 p k := fun k => funext fun a => Fin.ext (by match a with | ⟨0, _⟩ => rfl | ⟨1, _⟩ => rfl)
  have hr : ∀ k : Fin 128, ridx_main_v30 (ix2 p q) k = ix2 k q := fun k => funext fun a => Fin.ext (by match a with | ⟨0, _⟩ => rfl | ⟨1, _⟩ => rfl)
  have hl' : ∀ k : Fin 128, lidx_main_v68 (ix2 p q) k = ix2 p k := fun k => funext fun a => Fin.ext (by match a with | ⟨0, _⟩ => rfl | ⟨1, _⟩ => rfl)
  have hr' : ∀ k : Fin 128, ridx_main_v68 (ix2 p q) k = ix2 k q := fun k => funext fun a => Fin.ext (by match a with | ⟨0, _⟩ => rfl | ⟨1, _⟩ => rfl)
  have h4 : idx_main_v31 (idx_main_v32 (ix2 p q)) = ix1 q := funext fun a => Fin.ext (by match a with | ⟨0, _⟩ => rfl)
  have h7 : idx_main_v34 (idx_main_v35 (ix2 p q)) = ix1 q := funext fun a => Fin.ext (by match a with | ⟨0, _⟩ => rfl)
  have h6 : idx_main_v69 (idx_main_v70 (ix2 p q)) = ix1 q := funext fun a => Fin.ext (by match a with | ⟨0, _⟩ => rfl)
  have h8 : idx_main_v72 (idx_main_v73 (ix2 p q)) = ix1 q := funext fun a => Fin.ext (by match a with | ⟨0, _⟩ => rfl)
  simp only [hl, hr, hl', hr', h4, h7, h6, h8]
  rfl

/-- Row `p`'s mean. -/
theorem mu_apply (p : Fin 16384) :
    val_main_v81 (F := Ideal) x0 x1 x2 x3 x4 x5 x6 x7 x8 x11 x12 (ix2 p (0 : Fin 1))
      = mean (fun k => val_main_v77 (F := Ideal) x0 x1 x2 x3 x4 x5 x6 x7 x8 x11 x12 (ix2 p k)) := by
  unfold val_main_v81 val_main_v80 val_main_cst_16 val_main_v79 val_main_v78 val_main_cst_15 mean
  rw [hostDivf_at, bcastCol_apply, rowSumR, bcastScalar_apply, constant_apply, constant_apply, Ideal.ofBits_zero_f32, zero_add]
  try rfl

/-- Row `p`'s variance. -/
theorem var_apply (p : Fin 16384) :
    val_main_v88 (F := Ideal) x0 x1 x2 x3 x4 x5 x6 x7 x8 x11 x12 (ix2 p (0 : Fin 1))
      = Ideal.div (∑ k : Fin 128,
          (val_main_v77 (F := Ideal) x0 x1 x2 x3 x4 x5 x6 x7 x8 x11 x12 (ix2 p k) - mean (fun k => val_main_v77 (F := Ideal) x0 x1 x2 x3 x4 x5 x6 x7 x8 x11 x12 (ix2 p k)))
          * (val_main_v77 (F := Ideal) x0 x1 x2 x3 x4 x5 x6 x7 x8 x11 x12 (ix2 p k) - mean (fun k => val_main_v77 (F := Ideal) x0 x1 x2 x3 x4 x5 x6 x7 x8 x11 x12 (ix2 p k)))) width := by
  rw [val_main_v88_apply, val_main_v86_apply, val_main_v85_apply, val_main_v87_apply, val_main_cst_18_apply, val_main_cst_17_apply]
  simp only [val_main_v84_apply, val_main_v83_apply, val_main_v82_apply]
  have h1 : ∀ k : Fin 128, idx_main_v85 (idx_main_v86 (ix2 p (0 : Fin 1))) k = ix2 p k := fun k => funext fun a => Fin.ext (by match a with | ⟨0, _⟩ => rfl | ⟨1, _⟩ => rfl)
  have h2 : ∀ k : Fin 128, idx_main_v82 (ix2 p k) = ix2 p (0 : Fin 1) := fun k => funext fun a => Fin.ext (by match a with | ⟨0, _⟩ => rfl | ⟨1, _⟩ => rfl)
  simp only [h1, h2, mu_apply]
  rw [Ideal.ofBits_def, Ideal.ofBits_def, Ideal.ofBits_zero_f32, zero_add]
  rfl

/-- The reference's result array is the spec's output of its two aggregates. -/
theorem ref_fused :
    val_main_v102 (F := Ideal) x0 x1 x2 x3 x4 x5 x6 x7 x8 x9 x10 x11 x12
      = fused (val_main_v29 (F := Ideal) x0 x11 x12) (val_main_v67 (F := Ideal) x1 x2 x11 x12) x3 x5
          (vecOf x4) (vecOf x6) (vecOf x7) (vecOf x8) (vecOf x9) (vecOf x10) := by
  funext i
  obtain ⟨p, q, rfl⟩ : ∃ (p : Fin 16384) (q : Fin 128), i = ix2 p q := ⟨i 0, i 1, eq_ix2 i⟩
  rw [fused_apply, val_main_v102_apply, val_main_v101_apply, val_main_v98_apply, val_main_v95_apply, val_main_v90_apply, val_main_v89_apply,
    val_main_v94_apply, val_main_v93_apply, val_main_v92_apply, val_main_v91_apply, val_main_cst_19_apply,
    val_main_v97_apply, val_main_v96_apply, val_main_v100_apply, val_main_v99_apply, val_main_call0_v0_apply, val_main_call0_cst_apply]
  have h89 : idx_main_v89 (ix2 p q) = ix2 p (0 : Fin 1) := funext fun a => Fin.ext (by match a with | ⟨0, _⟩ => rfl | ⟨1, _⟩ => rfl)
  have h94 : idx_main_v94 (ix2 p q) = ix2 p (0 : Fin 1) := funext fun a => Fin.ext (by match a with | ⟨0, _⟩ => rfl | ⟨1, _⟩ => rfl)
  have h9 : idx_main_v96 (idx_main_v97 (ix2 p q)) = ix1 q := funext fun a => Fin.ext (by match a with | ⟨0, _⟩ => rfl)
  have h10 : idx_main_v99 (idx_main_v100 (ix2 p q)) = ix1 q := funext fun a => Fin.ext (by match a with | ⟨0, _⟩ => rfl)
  rw [h89, h94, h9, h10, var_apply, mu_apply]
  simp only [mix_apply]
  rfl

end

end Cert.ReferenceIdeal.Fused

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.KernelValue.lean ====
/-
  The kernel program's result as the reference's own term.

  The second call leaves `FuseSpec.fused` of its ten input arrays in the result buffer.  Its two aggregate
  inputs are the halves of the joined aggregation, hence `aggOf` of the node features and of the first call's
  product; its weight matrices are the launched ones and its six rows the launched vectors laid flat.  The
  reference's result is `FuseSpec.fused` of `aggOf` of the same arrays with the same parameters, so the two
  results are one array.
-/
import proofs.«139378_j23613730193937_2_alg».proof.Proof.Region1
import proofs.«139378_j23613730193937_2_alg».proof.Proof.Between
import proofs.«139378_j23613730193937_2_alg».proof.Proof.Bridge
import proofs.«139378_j23613730193937_2_alg».proof.Proof.RefFused
import proofs.«139378_j23613730193937_2_alg».proof.Proof.LibRow

set_option maxRecDepth 16384

noncomputable section

namespace Cert.KernelIdeal.Result

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators
open Cert.FuseSpec Cert.KernelIdeal.Blocks Cert.KernelIdeal.Between Cert.Bridge

/-- A vector laid out as a [1, 128] row, read back as a row, is the vector. -/
theorem row_of_cast (v : FVec Ideal S128 .f32) :
    rowOf (shapeCast S1x128 v shapeCasts_S128_S1x128) = Cert.ReferenceIdeal.Fused.vecOf v :=
  funext fun q => Cert.LibRow.row_apply v shapeCasts_S128_S1x128 q

/-- `FuseSpec.fused` of equal arguments. -/
theorem fused_congr {M K N : ℕ} {a a' f f' : (⟨2, ![M, K]⟩ : Shape).Idx → EReal} {Wc Wc' Wf Wf' : (⟨2, ![K, N]⟩ : Shape).Idx → EReal}
    {bc bc' bf bf' cw cw' tw tw' g g' b b' : Fin N → EReal}
    (ha : a = a') (hf : f = f') (hWc : Wc = Wc') (hWf : Wf = Wf') (hbc : bc = bc') (hbf : bf = bf') (hcw : cw = cw')
    (htw : tw = tw') (hg : g = g') (hb : b = b') :
    fused a f Wc Wf bc bf cw tw g b = fused a' f' Wc' Wf' bc' bf' cw' tw' g' b' := by
  subst ha hf hWc hWf hbc hbf hcw htw hg hb
  rfl

variable (m : (ℓ : Loc nD τ sig) → Buf (Elt Ideal) ℓ) (ρ : Dev nD → PrngReg)

/-- The second call's output array after the run is the reference's result term of the launched arguments. -/
theorem result_eq (c : Dev nD) :
    (dat1 (V3 m ρ) c).arrAt 10 cfg1.N
      = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (Region1.final (V3 m ρ) c).trans <|
    (fused_congr (M := 16384) (K := 128) (N := 128)
      ((V3_v35 m ρ c).trans ((cut_left _ _ _ _).trans (ref_agg_nodes (m ((c : Thread nD τ).loc main_arg0)) (m ((c : Thread nD τ).loc main_arg11)) (m ((c : Thread nD τ).loc main_arg12))).symm))
      ((V3_v36 m ρ c).trans ((cut_right _ _ _ _).trans
        ((congrArg (fun y => aggOf y (m ((c : Thread nD τ).loc main_arg11)) (m ((c : Thread nD τ).loc main_arg12))) (ref_product (m ((c : Thread nD τ).loc main_arg1)) (m ((c : Thread nD τ).loc main_arg2))).symm).trans
          (ref_agg_product (m ((c : Thread nD τ).loc main_arg1)) (m ((c : Thread nD τ).loc main_arg2)) (m ((c : Thread nD τ).loc main_arg11)) (m ((c : Thread nD τ).loc main_arg12))).symm)))
      (V3_arg3 m ρ c) (V3_arg5 m ρ c)
      ((congrArg rowOf (V3_v37 m ρ c)).trans (row_of_cast _)) ((congrArg rowOf (V3_v38 m ρ c)).trans (row_of_cast _))
      ((congrArg rowOf (V3_v39 m ρ c)).trans (row_of_cast _)) ((congrArg rowOf (V3_v40 m ρ c)).trans (row_of_cast _))
      ((congrArg rowOf (V3_v41 m ρ c)).trans (row_of_cast _)) ((congrArg rowOf (V3_v42 m ρ c)).trans (row_of_cast _))).trans
    (Cert.ReferenceIdeal.Fused.ref_fused (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

end Cert.KernelIdeal.Result

end
-- ==== Proof.lean ====
/-
  Two programs compute one layer of a two-level graph network on 16384 nodes: a dense incidence product
  brings the coarser level's features down, both feature arrays are aggregated over 524288 edges with
  symmetric degree weights and self-loops, projected, scaled, averaged, and each node's row is normalised
  and rectified.  The kernel program does the product and the projection-to-rectifier stage in two tiled
  calls and aggregates both arrays at once, joined along their columns; the reference does everything on
  whole arrays, one array at a time.

  At exact arithmetic the two results are the same array.  Nothing but re-indexing joins the two sides: a
  block of rows is computed from the same rows (FuseSpec, Region0, Region1); the joined aggregation is the
  two separate ones column by column (Bridge); narrowing to a shorter float format is the identity.  No
  cancellation or distribution is used, so the finiteness of the inputs is never opened.

  The three frames: the two kernel programs' are the generated frames; the reference's is its generated run
  with the result forgotten.  The idealisation rewrote no operation, so the fourth conjunct is trivial.
-/
import proofs.«139378_j23613730193937_2_alg».proof.Defs
import proofs.«139378_j23613730193937_2_alg».proof.Proof.Gen.Kernel
import proofs.«139378_j23613730193937_2_alg».proof.Proof.Gen.Kernel.Skeleton
import proofs.«139378_j23613730193937_2_alg».proof.Proof.Gen.Kernel.Launch
import proofs.«139378_j23613730193937_2_alg».proof.Proof.Gen.Kernel.Points
import proofs.«139378_j23613730193937_2_alg».proof.Proof.Gen.Kernel.Frame
import proofs.«139378_j23613730193937_2_alg».proof.Proof.Gen.KernelIdeal
import proofs.«139378_j23613730193937_2_alg».proof.Proof.Gen.KernelIdeal.Skeleton
import proofs.«139378_j23613730193937_2_alg».proof.Proof.Gen.KernelIdeal.Launch
import proofs.«139378_j23613730193937_2_alg».proof.Proof.Gen.KernelIdeal.Points
import proofs.«139378_j23613730193937_2_alg».proof.Proof.Gen.KernelIdeal.Frame
import proofs.«139378_j23613730193937_2_alg».proof.Proof.Gen.ReferenceIdeal
import proofs.«139378_j23613730193937_2_alg».proof.Proof.Gen.Pre_finite_inputs
import proofs.«139378_j23613730193937_2_alg».proof.Proof.Gen.ReferenceIdeal.Run
import proofs.«139378_j23613730193937_2_alg».proof.Proof.Gen.ReferenceIdeal.Read
import Idealize.ShloMosaic.Adequacy
import Idealize.ShloMosaic.Init

import proofs.«139378_j23613730193937_2_alg».proof.Proof.KernelRun
import proofs.«139378_j23613730193937_2_alg».proof.Proof.KernelValue

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result buffer at the reference's term of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun r h c => ⟨(h c).1.trans (Cert.KernelIdeal.Result.result_eq m ρ c), (h c).2⟩)
    (Cert.KernelIdeal.RunValue.run_main (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v102_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
